-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S8x1024 : Shape := ⟨2, ![8, 1024]⟩
abbrev S2048x1024 : Shape := ⟨2, ![2048, 1024]⟩
abbrev S2048 : Shape := ⟨1, ![2048]⟩
abbrev S1024 : Shape := ⟨1, ![1024]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S8x1024 : S_.BroadcastsInDim S8x1024 (![] : Fin 0 → Fin S8x1024.rank)
  reducesTo_S8x1024_S_d0_1 : S8x1024.ReducesTo [0, 1] S_
  bcast_S_S2048x1024 : S_.BroadcastsInDim S2048x1024 (![] : Fin 0 → Fin S2048x1024.rank)
  reducesTo_S2048x1024_S_d0_1 : S2048x1024.ReducesTo [0, 1] S_
  bcast_S_S2048 : S_.BroadcastsInDim S2048 (![] : Fin 0 → Fin S2048.rank)
  reducesTo_S2048_S_d0 : S2048.ReducesTo [0] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S8x4096x1024 .f32) (main_arg1 : FVec F S8x1024 .f32) (main_arg2 : FVec F S2048x1024 .f32) (main_arg3 : FVec F S2048 .f32) (main_arg4 : FVec F S1024 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S8x1024 .f32 := Host.absf main_arg1
  let main_cst_0 : FVec F S_ .f32 := constant S_ .f32 0x7F800000#32
  let main_v5 : FVec F S8x1024 .f32 := broadcastInDim S8x1024 ![] bcast_S_S8x1024 main_cst_0
  let main_v6 : IVec S8x1024 1 := cmpf .olt main_v4 main_v5
  let main_c_1 : IVec S_ 1 := constantI S_ 1 1#1
  let main_v7 : IVec S_ 1 := (fun x v => Host.reduce IntOp.andi x v reducesTo_S8x1024_S_d0_1 h_S_) main_v6 main_c_1
  let main_v8 : IVec S_ 1 := andi main_v3 main_v7
  let main_v9 : FVec F S2048x1024 .f32 := Host.absf main_arg2
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_c_3 : IVec S_ 1 := constantI S_ 1 1#1
  let main_v12 : IVec S_ 1 := (fun x v => Host.reduce IntOp.andi x v reducesTo_S2048x1024_S_d0_1 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_v13 main_v16
-- ==== Kernel.lean ====
abbrev S8x4096x1024 : Shape := ⟨3, ![8, 4096, 1024]⟩
abbrev S8x1024 : Shape := ⟨2, ![8, 1024]⟩
abbrev S2048x1024 : Shape := ⟨2, ![2048, 1024]⟩
abbrev S2048 : Shape := ⟨1, ![2048]⟩
abbrev S1024 : Shape := ⟨1, ![1024]⟩
abbrev S_ : Shape := ⟨0, ![]⟩
abbrev S8 : Shape := ⟨1, ![8]⟩
abbrev S8x1 : Shape := ⟨2, ![8, 1]⟩
abbrev S8x2048 : Shape := ⟨2, ![8, 2048]⟩
abbrev S1x2048 : Shape := ⟨2, ![1, 2048]⟩
abbrev S8x1x1024 : Shape := ⟨3, ![8, 1, 1024]⟩
abbrev S1x1x1024 : Shape := ⟨3, ![1, 1, 1024]⟩
abbrev S1x2048x1024 : Shape := ⟨3, ![1, 2048, 1024]⟩
abbrev S1x2048x1 : Shape := ⟨3, ![1, 2048, 1]⟩

abbrev nBuf : Space → Nat
  | .hbm => 62
  | .vmem => 9
  | .smem => 0
  | _ => 0

abbrev bufTy : (tb : Table) → Fin (tcTables nBuf tb) → BufTy
  | .hbm, ⟨0, _⟩ => ⟨S8x4096x1024, .f32⟩
  | .hbm, ⟨1, _⟩ => ⟨S8x1024, .f32⟩
  | .hbm, ⟨2, _⟩ => ⟨S2048x1024, .f32⟩
  | .hbm, ⟨3, _⟩ => ⟨S2048, .f32⟩
  | .hbm, ⟨4, _⟩ => ⟨S1024, .f32⟩
  | .hbm, ⟨5, _⟩ => ⟨S2048x1024, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S2048x1024, .f32⟩
  | .hbm, ⟨22, _⟩ => ⟨S2048x1024, .f32⟩
  | .hbm, ⟨23, _⟩ => ⟨S_, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S8x1024, .f32⟩
  | .hbm, ⟨29, _⟩ => ⟨S_, .f32⟩
  | .hbm, ⟨30, _⟩ => ⟨S8, .f32⟩
  | .hbm, ⟨31, _⟩ => ⟨S8x1, .f32⟩
  | .hbm, ⟨32, _⟩ => ⟨S_, .f32⟩
  | .hbm, ⟨33, _⟩ => ⟨S_, .f32⟩
  | .hbm, ⟨34, _⟩ => ⟨S8x1, .f32⟩
  | .hbm, ⟨35, _⟩ => ⟨S8x1, .f32⟩
  | .hbm, ⟨36, _⟩ => ⟨S_, .f32⟩
  | .hbm, ⟨37, _⟩ => ⟨S8x1, .f32⟩
  | .hbm, ⟨38, _⟩ => ⟨S8x1, .f32⟩
  | .hbm, ⟨39, _⟩ => ⟨S8x1024, .f32⟩
  | .hbm, ⟨40, _⟩ => ⟨S8x1024, .f32⟩
  | .hbm, ⟨41, _⟩ => ⟨S8x1024, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S8x1024, .f32⟩
  | .hbm, ⟨46, _⟩ => ⟨S8x1024, .f32⟩
  | .hbm, ⟨47, _⟩ => ⟨S_, .f32⟩
  | .hbm, ⟨48, _⟩ => ⟨S8x1024, .f32⟩
  | .hbm, ⟨49, _⟩ => ⟨S8x1024, .f32⟩
  | .hbm, ⟨50, _⟩ => ⟨S8x1024, .f32⟩
  | .hbm, ⟨51, _⟩ => ⟨S8x1024, .f32⟩
  | .hbm, ⟨52, _⟩ => ⟨S8x2048, .f32⟩
  | .hbm, ⟨53, _⟩ => ⟨S1x2048, .f32⟩
  | .hbm, ⟨54, _⟩ => ⟨S8x2048, .f32⟩
  | .hbm, ⟨55, _⟩ => ⟨S8x2048, .f32⟩
  | .hbm, ⟨56, _⟩ => ⟨S8x1024, .f32⟩
  | .hbm, ⟨57, _⟩ => ⟨S8x1024, .f32⟩
  | .hbm, ⟨58, _⟩ => ⟨S8x1x1024, .f32⟩
  | .hbm, ⟨59, _⟩ => ⟨S8x1x1024, .f32⟩
  | .hbm, ⟨60, _⟩ => ⟨S1x1x1024, .f32⟩
  | .hbm, ⟨61, _⟩ => ⟨S8x4096x1024, .f32⟩
  | .local _ .vmem, ⟨0, _⟩ => ⟨S1x2048x1024, .f32⟩
  | .local _ .vmem, ⟨1, _⟩ => ⟨S1x2048x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x2048x1024, .f32⟩
  | .local _ .vmem, ⟨8, _⟩ => ⟨S1x2048x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_cst_1 : Ref sig .tc := ⟨.hbm, 10, rfl⟩
abbrev main_call0_v0 : Ref sig .tc := ⟨.hbm, 11, rfl⟩
abbrev main_v3 : Ref sig .tc := ⟨.hbm, 12, rfl⟩
abbrev main_cst_2 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_3 : Ref sig .tc := ⟨.hbm, 18, rfl⟩
abbrev main_cst_4 : Ref sig .tc := ⟨.hbm, 19, rfl⟩
abbrev main_call2_v0 : Ref sig .tc := ⟨.hbm, 20, rfl⟩
abbrev main_call2_v1 : Ref sig .tc := ⟨.hbm, 21, rfl⟩
abbrev main_call2_v2 : Ref sig .tc := ⟨.hbm, 22, rfl⟩
abbrev main_call2_v3 : Ref sig .tc := ⟨.hbm, 23, rfl⟩
abbrev main_call2_v4 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_5 : Ref sig .tc := ⟨.hbm, 29, rfl⟩
abbrev main_v12 : Ref sig .tc := ⟨.hbm, 30, rfl⟩
abbrev main_v13 : Ref sig .tc := ⟨.hbm, 31, rfl⟩
abbrev main_cst_6 : Ref sig .tc := ⟨.hbm, 32, rfl⟩
abbrev main_call3_v0 : Ref sig .tc := ⟨.hbm, 33, rfl⟩
abbrev main_call3_v1 : Ref sig .tc := ⟨.hbm, 34, rfl⟩
abbrev main_v14 : Ref sig .tc := ⟨.hbm, 35, rfl⟩
abbrev main_cst_7 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst_8 : Ref sig .tc := ⟨.hbm, 42, rfl⟩
abbrev main_cst_9 : Ref sig .tc := ⟨.hbm, 43, rfl⟩
abbrev main_call5_v0 : Ref sig .tc := ⟨.hbm, 44, rfl⟩
abbrev main_call5_v1 : Ref sig .tc := ⟨.hbm, 45, rfl⟩
abbrev main_call5_v2 : Ref sig .tc := ⟨.hbm, 46, rfl⟩
abbrev main_call5_v3 : Ref sig .tc := ⟨.hbm, 47, rfl⟩
abbrev main_call5_v4 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x2048x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  reducesTo_S2048x1024_S_d0_1 : S2048x1024.ReducesTo [0, 1] S_
  h_S_ : 0 < S_.numel
  bcast_S_S2048x1024 : S_.BroadcastsInDim S2048x1024 (![] : Fin 0 → Fin S2048x1024.rank)
  reducesTo_S8x1024_S8_d1 : S8x1024.ReducesTo [1] S8
  bcast_S8_S8x1_0 : S8.BroadcastsInDim S8x1 (![0] : Fin 1 → Fin S8x1.rank)
  bcast_S_S8x1 : S_.BroadcastsInDim S8x1 (![] : Fin 0 → Fin S8x1.rank)
  bcast_S8x1_S8x1024_0_1 : S8x1.BroadcastsInDim S8x1024 (![0, 1] : Fin 2 → Fin S8x1024.rank)
  bcast_S_S8x1024 : S_.BroadcastsInDim S8x1024 (![] : Fin 0 → Fin S8x1024.rank)
  bcast_S2048_S1x2048_1 : S2048.BroadcastsInDim S1x2048 (![1] : Fin 1 → Fin S1x2048.rank)
  bcast_S1x2048_S8x2048_0_1 : S1x2048.BroadcastsInDim S8x2048 (![0, 1] : Fin 2 → Fin S8x2048.rank)
  slices_S8x2048_S8x1024_0_0 : S8x2048.Slices ![0, 0] S8x1024
  slices_S8x2048_S8x1024_0_1024 : S8x2048.Slices ![0, 1024] S8x1024
  shapeCasts_S8x1024_S8x1x1024 : S8x1024.ShapeCasts S8x1x1024
  shapeCasts_S1024_S1x1x1024 : S1024.ShapeCasts S1x1x1024
  inb_S1x2048x1024_S1x2048x1024_0_0_0 : ∀ a, (![0, 0, 0] : Fin 3 → Nat) a + S1x2048x1024.size a ≤ S1x2048x1024.size a
  h_S1x2048x1024 : 0 < S1x2048x1024.numel
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1x1024 : S1x1x1024.ShapeCasts S1x1x1024
  reduces_S1x2048x1024_S1x2048 : S1x2048x1024.Reduces [2] S1x2048
  shapeCasts_S1x2048_S1x2048x1 : S1x2048.ShapeCasts S1x2048x1
  broadcasts_S1x2048x1_S1x2048x1024 : S1x2048x1.Broadcasts S1x2048x1024
  broadcasts_S1x1x1024_S1x2048x1024 : S1x1x1024.Broadcasts S1x2048x1024
  dot_S8x1024_S2048x1024_S8x2048_1_1_0_0_n_n_wf : DotDims.WF S8x1024 S2048x1024 S8x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S8x4096x1024.size a
  hwx0_0 : ∀ i : grid0.Coords, EltTy.bits .f32 = 32 ∨ (Rect.block (s := S8x4096x1024) S1x2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1024.size a ≤ S8x1x1024.size a
  hwx0_1 : ∀ i : grid0.Coords, EltTy.bits .f32 = 32 ∨ (Rect.block (s := S8x1x1024) S1x1x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024.size a ≤ S8x1x1024.size a
  hwx0_2 : ∀ i : grid0.Coords, EltTy.bits .f32 = 32 ∨ (Rect.block (s := S8x1x1024) S1x1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1x1024.size a ≤ S1x1x1024.size a
  hwx0_3 : ∀ i : grid0.Coords, EltTy.bits .f32 = 32 ∨ (Rect.block (s := S1x1x1024) S1x1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048x1024.size a ≤ S8x4096x1024.size a
  hwx0_4 : ∀ i : grid0.Coords, EltTy.bits .f32 = 32 ∨ (Rect.block (s := S8x4096x1024) S1x2048x1024.size (cc0_transform_4 i) (hinb0_4 i)).WholeWords (EltTy.packing .f32)

variable [Facts₀]

def dot_S8x1024_S2048x1024_S8x2048_1_1_0_0_n_n : DotDims S8x1024 S2048x1024 S8x2048 where
  lhsContracting := [1]
  rhsContracting := [1]
  lhsNonContracting := [0]
  rhsNonContracting := [0]
  lhsBatch := []
  rhsBatch := []
  wf := dot_S8x1024_S2048x1024_S8x2048_1_1_0_0_n_n_wf

abbrev win0_0 : Pipeline.Window sig grid0 :=
  Pipeline.Window.ofSpec (Memref.whole main_arg0) S1x2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S1x1x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v30) S1x1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v31) S1x1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v32) S1x2048x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x4096x1024 : Shape := ⟨3, ![8, 4096, 1024]⟩
abbrev S8x1024 : Shape := ⟨2, ![8, 1024]⟩
abbrev S2048x1024 : Shape := ⟨2, ![2048, 1024]⟩
abbrev S2048 : Shape := ⟨1, ![2048]⟩
abbrev S1024 : Shape := ⟨1, ![1024]⟩
abbrev S8x1x1024 : Shape := ⟨3, ![8, 1, 1024]⟩
abbrev S_ : Shape := ⟨0, ![]⟩
abbrev S8x1 : Shape := ⟨2, ![8, 1]⟩
abbrev S8x1x1 : Shape := ⟨3, ![8, 1, 1]⟩
abbrev S8x1x2048 : Shape := ⟨3, ![8, 1, 2048]⟩
abbrev S1x1x2048 : Shape := ⟨3, ![1, 1, 2048]⟩
abbrev S8x4096 : Shape := ⟨2, ![8, 4096]⟩
abbrev S8x4096x1 : Shape := ⟨3, ![8, 4096, 1]⟩
abbrev S1x1x1024 : Shape := ⟨3, ![1, 1, 1024]⟩

abbrev nBuf : Space → Nat
  | .hbm => 86
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x1024, .f32⟩
  | .hbm, ⟨2, _⟩ => ⟨S2048x1024, .f32⟩
  | .hbm, ⟨3, _⟩ => ⟨S2048, .f32⟩
  | .hbm, ⟨4, _⟩ => ⟨S1024, .f32⟩
  | .hbm, ⟨5, _⟩ => ⟨S8x1x1024, .f32⟩
  | .hbm, ⟨6, _⟩ => ⟨S8x1x1024, .f32⟩
  | .hbm, ⟨7, _⟩ => ⟨S_, .f32⟩
  | .hbm, ⟨8, _⟩ => ⟨S8x1, .f32⟩
  | .hbm, ⟨9, _⟩ => ⟨S8x1x1, .f32⟩
  | .hbm, ⟨10, _⟩ => ⟨S_, .f32⟩
  | .hbm, ⟨11, _⟩ => ⟨S_, .f32⟩
  | .hbm, ⟨12, _⟩ => ⟨S8x1x1, .f32⟩
  | .hbm, ⟨13, _⟩ => ⟨S8x1x1, .f32⟩
  | .hbm, ⟨14, _⟩ => ⟨S_, .f32⟩
  | .hbm, ⟨15, _⟩ => ⟨S8x1x1, .f32⟩
  | .hbm, ⟨16, _⟩ => ⟨S8x1x1, .f32⟩
  | .hbm, ⟨17, _⟩ => ⟨S8x1x1024, .f32⟩
  | .hbm, ⟨18, _⟩ => ⟨S8x1x1024, .f32⟩
  | .hbm, ⟨19, _⟩ => ⟨S8x1x1024, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S8x1x1024, .f32⟩
  | .hbm, ⟨24, _⟩ => ⟨S8x1x1024, .f32⟩
  | .hbm, ⟨25, _⟩ => ⟨S_, .f32⟩
  | .hbm, ⟨26, _⟩ => ⟨S8x1x1024, .f32⟩
  | .hbm, ⟨27, _⟩ => ⟨S8x1x1024, .f32⟩
  | .hbm, ⟨28, _⟩ => ⟨S8x1x1024, .f32⟩
  | .hbm, ⟨29, _⟩ => ⟨S8x1x1024, .f32⟩
  | .hbm, ⟨30, _⟩ => ⟨S8x1x1024, .f32⟩
  | .hbm, ⟨31, _⟩ => ⟨S8x1x1024, .f32⟩
  | .hbm, ⟨32, _⟩ => ⟨S2048x1024, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S2048x1024, .f32⟩
  | .hbm, ⟨49, _⟩ => ⟨S2048x1024, .f32⟩
  | .hbm, ⟨50, _⟩ => ⟨S_, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S2048x1024, .f32⟩
  | .hbm, ⟨55, _⟩ => ⟨S2048x1024, .f32⟩
  | .hbm, ⟨56, _⟩ => ⟨S2048x1024, .f32⟩
  | .hbm, ⟨57, _⟩ => ⟨S8x1x2048, .f32⟩
  | .hbm, ⟨58, _⟩ => ⟨S1x1x2048, .f32⟩
  | .hbm, ⟨59, _⟩ => ⟨S8x1x2048, .f32⟩
  | .hbm, ⟨60, _⟩ => ⟨S8x1x2048, .f32⟩
  | .hbm, ⟨61, _⟩ => ⟨S8x1x1024, .f32⟩
  | .hbm, ⟨62, _⟩ => ⟨S8x1x1024, .f32⟩
  | .hbm, ⟨63, _⟩ => ⟨S8x4096x1024, .f32⟩
  | .hbm, ⟨64, _⟩ => ⟨S_, .f32⟩
  | .hbm, ⟨65, _⟩ => ⟨S8x4096, .f32⟩
  | .hbm, ⟨66, _⟩ => ⟨S8x4096x1, .f32⟩
  | .hbm, ⟨67, _⟩ => ⟨S_, .f32⟩
  | .hbm, ⟨68, _⟩ => ⟨S8x4096x1, .f32⟩
  | .hbm, ⟨69, _⟩ => ⟨S8x4096x1, .f32⟩
  | .hbm, ⟨70, _⟩ => ⟨S_, .f32⟩
  | .hbm, ⟨71, _⟩ => ⟨S8x4096x1, .f32⟩
  | .hbm, ⟨72, _⟩ => ⟨S8x4096x1, .f32⟩
  | .hbm, ⟨73, _⟩ => ⟨S8x4096x1, .f32⟩
  | .hbm, ⟨74, _⟩ => ⟨S8x4096x1024, .f32⟩
  | .hbm, ⟨75, _⟩ => ⟨S8x4096x1024, .f32⟩
  | .hbm, ⟨76, _⟩ => ⟨S1x1x1024, .f32⟩
  | .hbm, ⟨77, _⟩ => ⟨S8x4096x1024, .f32⟩
  | .hbm, ⟨78, _⟩ => ⟨S8x4096x1024, .f32⟩
  | .hbm, ⟨79, _⟩ => ⟨S_, .f32⟩
  | .hbm, ⟨80, _⟩ => ⟨S8x1x1024, .f32⟩
  | .hbm, ⟨81, _⟩ => ⟨S8x1x1024, .f32⟩
  | .hbm, ⟨82, _⟩ => ⟨S8x4096x1024, .f32⟩
  | .hbm, ⟨83, _⟩ => ⟨S8x4096x1024, .f32⟩
  | .hbm, ⟨84, _⟩ => ⟨S8x4096x1024, .f32⟩
  | .hbm, ⟨85, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_call0_v0 : Ref sig .tc := ⟨.hbm, 11, rfl⟩
abbrev main_call0_v1 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_cst_3 : Ref sig .tc := ⟨.hbm, 21, rfl⟩
abbrev main_call2_v0 : Ref sig .tc := ⟨.hbm, 22, rfl⟩
abbrev main_call2_v1 : Ref sig .tc := ⟨.hbm, 23, rfl⟩
abbrev main_call2_v2 : Ref sig .tc := ⟨.hbm, 24, rfl⟩
abbrev main_call2_v3 : Ref sig .tc := ⟨.hbm, 25, rfl⟩
abbrev main_call2_v4 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_4 : Ref sig .tc := ⟨.hbm, 33, rfl⟩
abbrev main_v16 : Ref sig .tc := ⟨.hbm, 34, rfl⟩
abbrev main_cst_5 : Ref sig .tc := ⟨.hbm, 35, rfl⟩
abbrev main_v17 : Ref sig .tc := ⟨.hbm, 36, rfl⟩
abbrev main_cst_6 : Ref sig .tc := ⟨.hbm, 37, rfl⟩
abbrev main_call3_v0 : Ref sig .tc := ⟨.hbm, 38, rfl⟩
abbrev main_v18 : Ref sig .tc := ⟨.hbm, 39, rfl⟩
abbrev main_cst_7 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_8 : Ref sig .tc := ⟨.hbm, 45, rfl⟩
abbrev main_cst_9 : Ref sig .tc := ⟨.hbm, 46, rfl⟩
abbrev main_call5_v0 : Ref sig .tc := ⟨.hbm, 47, rfl⟩
abbrev main_call5_v1 : Ref sig .tc := ⟨.hbm, 48, rfl⟩
abbrev main_call5_v2 : Ref sig .tc := ⟨.hbm, 49, rfl⟩
abbrev main_call5_v3 : Ref sig .tc := ⟨.hbm, 50, rfl⟩
abbrev main_call5_v4 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst_10 : Ref sig .tc := ⟨.hbm, 64, rfl⟩
abbrev main_v35 : Ref sig .tc := ⟨.hbm, 65, rfl⟩
abbrev main_v36 : Ref sig .tc := ⟨.hbm, 66, rfl⟩
abbrev main_cst_11 : Ref sig .tc := ⟨.hbm, 67, rfl⟩
abbrev main_v37 : Ref sig .tc := ⟨.hbm, 68, rfl⟩
abbrev main_v38 : Ref sig .tc := ⟨.hbm, 69, rfl⟩
abbrev main_cst_12 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_cst_13 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩

abbrev nD : Nat := 1
abbrev τ : Topo := Topo.v7x

variable {F : FTy → Type} [FloatOps F]

class Facts₀ : Prop where
  bcast_S8x1024_S8x1x1024_0_2 : S8x1024.BroadcastsInDim S8x1x1024 (![0, 2] : Fin 2 → Fin S8x1x1024.rank)
  reducesTo_S8x1x1024_S8x1_d2 : S8x1x1024.ReducesTo [2] S8x1
  h_S_ : 0 < S_.numel
  bcast_S8x1_S8x1x1_0_1 : S8x1.BroadcastsInDim S8x1x1 (![0, 1] : Fin 2 → Fin S8x1x1.rank)
  bcast_S_S8x1x1 : S_.BroadcastsInDim S8x1x1 (![] : Fin 0 → Fin S8x1x1.rank)
  bcast_S8x1x1_S8x1x1024_0_1_2 : S8x1x1.BroadcastsInDim S8x1x1024 (![0, 1, 2] : Fin 3 → Fin S8x1x1024.rank)
  bcast_S_S8x1x1024 : S_.BroadcastsInDim S8x1x1024 (![] : Fin 0 → Fin S8x1x1024.rank)
  reducesTo_S2048x1024_S_d0_1 : S2048x1024.ReducesTo [0, 1] S_
  bcast_S_S2048x1024 : S_.BroadcastsInDim S2048x1024 (![] : Fin 0 → Fin S2048x1024.rank)
  bcast_S2048_S1x1x2048_2 : S2048.BroadcastsInDim S1x1x2048 (![2] : Fin 1 → Fin S1x1x2048.rank)
  bcast_S1x1x2048_S8x1x2048_0_1_2 : S1x1x2048.BroadcastsInDim S8x1x2048 (![0, 1, 2] : Fin 3 → Fin S8x1x2048.rank)
  slices_S8x1x2048_S8x1x1024_0_0_0 : S8x1x2048.Slices ![0, 0, 0] S8x1x1024
  slices_S8x1x2048_S8x1x1024_0_0_1024 : S8x1x2048.Slices ![0, 0, 1024] S8x1x1024
  reducesTo_S8x4096x1024_S8x4096_d2 : S8x4096x1024.ReducesTo [2] S8x4096
  bcast_S8x4096_S8x4096x1_0_1 : S8x4096.BroadcastsInDim S8x4096x1 (![0, 1] : Fin 2 → Fin S8x4096x1.rank)
  bcast_S_S8x4096x1 : S_.BroadcastsInDim S8x4096x1 (![] : Fin 0 → Fin S8x4096x1.rank)
  bcast_S8x4096x1_S8x4096x1024_0_1_2 : S8x4096x1.BroadcastsInDim S8x4096x1024 (![0, 1, 2] : Fin 3 → Fin S8x4096x1024.rank)
  bcast_S1024_S1x1x1024_2 : S1024.BroadcastsInDim S1x1x1024 (![2] : Fin 1 → Fin S1x1x1024.rank)
  bcast_S1x1x1024_S8x4096x1024_0_1_2 : S1x1x1024.BroadcastsInDim S8x4096x1024 (![0, 1, 2] : Fin 3 → Fin S8x4096x1024.rank)
  bcast_S8x1x1024_S8x4096x1024_0_1_2 : S8x1x1024.BroadcastsInDim S8x4096x1024 (![0, 1, 2] : Fin 3 → Fin S8x4096x1024.rank)
  dot_S8x1x1024_S2048x1024_S8x1x2048_2_1_01_0_n_n_wf : DotDims.WF S8x1x1024 S2048x1024 S8x1x2048 [2] [1] [0, 1] [0] [] []

variable [Facts₀]

def dot_S8x1x1024_S2048x1024_S8x1x2048_2_1_01_0_n_n : DotDims S8x1x1024 S2048x1024 S8x1x2048 where
  lhsContracting := [2]
  rhsContracting := [1]
  lhsNonContracting := [0, 1]
  rhsNonContracting := [0]
  lhsBatch := []
  rhsBatch := []
  wf := dot_S8x1x1024_S2048x1024_S8x1x2048_2_1_01_0_n_n_wf

class Facts : Prop extends Facts₀ where

variable [Facts]
-- ==== Proof.Spec.lean ====
/-
  The mathematics of an adaptive RMS normalisation, stated once over the extended reals.

  For an array x of shape [8, 4096, 1024], a scale and a shift of shape [8, 1, 1024] and a weight vector of length 1024,
  the modulated normalisation is, at (b, s, j),
      x(b,s,j) · rsqrt( (Σ_k x(b,s,k)²) / 1024 + ε ) · weight(j) · (1 + scale(b,0,j)) + shift(b,0,j),
  every operation the exact one on the extended reals and the three literals kept as their binary patterns.

  Also here: the one law the quantised projection needs. A "straight-through" value a + (q − a) is q whenever a is a
  real number, whatever extended real q is (for q = ±∞ both sides are that infinity).
-/
import Idealize.ShloMosaic.PureOps.Ideal
import Idealize.ShloMosaic.PureOps.Ideal.Laws
import Idealize.ShloMosaic.Lib.ValueIdx

noncomputable section

namespace Cert.AdaNorm

open Idealize.ShloMosaic Idealize.ShloMosaic.ValueIdx

/-- a + (q − a) = q for a real a and any extended real q. -/
theorem add_sub_cancel_real (a : ℝ) (q : EReal) : (a : EReal) + (q - (a : EReal)) = q := by
  induction q using EReal.rec with
  | bot => simp
  | coe r => rw [← EReal.coe_sub, ← EReal.coe_add]; congr 1; ring
  | top => simp

/-- The same law for an extended real known to be a real number. -/
theorem add_sub_cancel_of_real {a : EReal} (h : ∃ r : ℝ, a = (r : EReal)) (q : EReal) : a + (q - a) = q := by
  obtain ⟨r, rfl⟩ := h
  exact add_sub_cancel_real r q

/-- The sum of squares along the last axis of row (b, s). -/
def sumSq (x : FVec Ideal ⟨3, ![8, 4096, 1024]⟩ .f32) (b : Fin 8) (s : Fin 4096) : EReal :=
  ∑ k : Fin 1024, x (ix3 b s k) * x (ix3 b s k)

/-- The reciprocal root-mean-square factor of row (b, s). -/
def invRms (x : FVec Ideal ⟨3, ![8, 4096, 1024]⟩ .f32) (b : Fin 8) (s : Fin 4096) : EReal :=
  Ideal.rsqrt (Ideal.div (sumSq x b s) (Ideal.ofBits .f32 0x44800000#32) + Ideal.ofBits .f32 0x358637BD#32)

/-- The modulated RMS normalisation, index by index. -/
def modNorm (x : FVec Ideal ⟨3, ![8, 4096, 1024]⟩ .f32) (sc sh : FVec Ideal ⟨3, ![8, 1, 1024]⟩ .f32)
    (wt : FVec Ideal ⟨1, ![1024]⟩ .f32) : FVec Ideal ⟨3, ![8, 4096, 1024]⟩ .f32 := fun i =>
  x i * invRms x (i 0) (i 1) * wt (ix1 (i 2)) * (Ideal.ofBits .f32 0x3F800000#32 + sc (ix3 (i 0) 0 (i 2)))
    + sh (ix3 (i 0) 0 (i 2))

end Cert.AdaNorm

end
-- ==== Proof.RefSide.lean ====
/-
  The reference's result is the modulated RMS normalisation of its own scale and shift.

  Read one operation at a time, the reference's last value at (b, s, j) is
  x(b,s,j) · rsqrt((0 + Σ_k x(b,s,k)²)/1024 + ε) · weight(j) · (1 + scale(b,0,j)) + shift(b,0,j), where scale and shift are
  the two halves of its projected embedding; the initial value 0 of the host's sum is dropped, and each broadcast reads
  its operand at the coordinates it keeps.
-/
import proofs.«180579_j17978733101754_2_alg».proof.Proof.RefRead
import proofs.«180579_j17978733101754_2_alg».proof.Proof.Spec

noncomputable section

namespace Cert.AdaNorm

open Cert.ReferenceIdeal Cert.ReferenceIdeal.Read Idealize.ShloMosaic Idealize.ShloMosaic.ValueIdx

/-- The row whose squares are summed for the entry at i, at the summed coordinate k. -/
theorem ref_row_idx (i : S8x4096x1024.Idx) (k : Fin 1024) :
    idx_main_v35 (idx_main_v36 (idx_main_v42 i)) k = ix3 (i 0) (i 1) k :=
  funext fun a => Fin.ext (by match a with | ⟨0, _⟩ => rfl | ⟨1, _⟩ => rfl | ⟨2, _⟩ => rfl)

/-- The weight's coordinate for the entry at i. -/
theorem ref_wt_idx (i : S8x4096x1024.Idx) : idx_main_v44 (idx_main_v45 i) = ix1 (i 2) :=
  funext fun a => Fin.ext (by match a with | ⟨0, _⟩ => rfl)

/-- The scale's coordinates for the entry at i. -/
theorem ref_scale_idx (i : S8x4096x1024.Idx) : idx_main_v49 i = ix3 (i 0) 0 (i 2) :=
  funext fun a => Fin.ext (by match a with | ⟨0, _⟩ => rfl | ⟨1, _⟩ => rfl | ⟨2, _⟩ => rfl)

/-- The shift's coordinates for the entry at i. -/
theorem ref_shift_idx (i : S8x4096x1024.Idx) : idx_main_v51 i = ix3 (i 0) 0 (i 2) :=
  funext fun a => Fin.ext (by match a with | ⟨0, _⟩ => rfl | ⟨1, _⟩ => rfl | ⟨2, _⟩ => rfl)

/-- The reference's last value is the modulated normalisation of x by the reference's own scale and shift. -/
theorem ref_eq_modNorm (x0 : (⟨S8x4096x1024, .f32⟩ : BufTy).Contents (Elt Ideal)) (x1 : (⟨S8x1024, .f32⟩ : BufTy).Contents (Elt Ideal))
    (x2 : (⟨S2048x1024, .f32⟩ : BufTy).Contents (Elt Ideal)) (x3 : (⟨S2048, .f32⟩ : BufTy).Contents (Elt Ideal))
    (x4 : (⟨S1024, .f32⟩ : BufTy).Contents (Elt Ideal)) :
    val_main_v52 (F := Ideal) x0 x1 x2 x3 x4
      = modNorm x0 (val_main_v32 (F := Ideal) x1 x2 x3) (val_main_v33 (F := Ideal) x1 x2 x3) x4 := by
  funext i
  rw [val_main_v52_apply, val_main_v50_apply, val_main_v46_apply, val_main_v43_apply, val_main_v42_apply,
    val_main_v41_apply, val_main_v40_apply, val_main_v38_apply, val_main_v36_apply, val_main_v35_apply,
    val_main_v37_apply, val_main_v39_apply, val_main_v45_apply, val_main_v44_apply, val_main_v49_apply,
    val_main_v48_apply, val_main_v47_apply, val_main_v51_apply]
  simp only [val_main_v34_apply, val_main_cst_10_apply, val_main_cst_11_apply, val_main_cst_12_apply,
    val_main_cst_13_apply, ref_row_idx, ref_wt_idx, ref_scale_idx, ref_shift_idx, Ideal.ofBits_def,
    Ideal.ofBits_zero_f32, zero_add]
  rfl

end Cert.AdaNorm

end
-- ==== Proof.KHost.lean ====
/-
  The host side of the kernel program, before its one launch: the quantised projection of the conditioning vector.

  From the conditioning c [8, 1024], the projection weights w [2048, 1024] and the bias [2048] the program computes
    * the weights' scale 1 / max(ε, mean |w|) and the ternary weights clip(round(w · scale), −1, 1) / scale,
    * per row b of c the scale 127 / max(ε, max_k |c(b,k)|) and the 8-bit activations
      clip(round(c · scale_b), −128, 127) / scale_b,
    * the embedding, activations times the transposed weights plus the bias, an [8, 2048] array,
  and hands the launch the embedding's left half as the scale [8, 1, 1024], its right half as the shift [8, 1, 1024],
  and the norm weight as a [1, 1, 1024] array.  Each stage is named here as a function of the argument arrays, and the
  three arrays the launch finds are shown to be these functions of the arguments.
-/
import proofs.«180579_j17978733101754_2_alg».proof.Proof.Gen.KernelIdeal.Frame
import Idealize.ShloMosaic.Lib.StableHlo.Run

noncomputable section

namespace Cert.AdaNorm.K

open Cert.KernelIdeal Cert.KernelIdeal.Gen Idealize.ShloMosaic Idealize.ShloMosaic.TcCoe Idealize.SL.Sem
open Idealize.ShloMosaic.StableHlo

variable {F : FTy → Type} [FloatOps F]

/-- The weights' scale, a scalar: 1 / max(ε, (0 + Σ |w|) / 2²¹). -/
def wScale (w : (⟨S2048x1024, .f32⟩ : BufTy).Contents (Elt F)) : (⟨S_, .f32⟩ : BufTy).Contents (Elt F) :=
  Host.divf (constant S_ .f32 0x3F800000#32)
    (maximumf (id (constant S_ .f32 0x3727C5AC#32))
      (Host.divf (Host.reduceAdd (Host.absf w) (constant S_ .f32 0x00000000#32) reducesTo_S2048x1024_S_d0_1 h_S_)
        (constant S_ .f32 0x4A000000#32)))

/-- The ternary weights: clip(round(w · scale), −1, 1) / scale. -/
def wQuant (w : (⟨S2048x1024, .f32⟩ : BufTy).Contents (Elt F)) : (⟨S2048x1024, .f32⟩ : BufTy).Contents (Elt F) :=
  Host.divf
    (minimumf (broadcastInDim S2048x1024 ![] bcast_S_S2048x1024 (id (constant S_ .f32 0x3F800000#32)))
      (maximumf (broadcastInDim S2048x1024 ![] bcast_S_S2048x1024 (id (constant S_ .f32 0xBF800000#32)))
        (Host.roundeven (mulf w (broadcastInDim S2048x1024 ![] bcast_S_S2048x1024 (wScale w))))))
    (broadcastInDim S2048x1024 ![] bcast_S_S2048x1024 (wScale w))

/-- The activations' scale per row, an [8, 1] column: 127 / max(ε, max_k |c(b,k)|). -/
def cScale (c : (⟨S8x1024, .f32⟩ : BufTy).Contents (Elt F)) : (⟨S8x1, .f32⟩ : BufTy).Contents (Elt F) :=
  Host.divf (broadcastInDim S8x1 ![] bcast_S_S8x1 (constant S_ .f32 0x42FE0000#32))
    (maximumf (broadcastInDim S8x1 ![] bcast_S_S8x1 (id (constant S_ .f32 0x3727C5AC#32)))
      (broadcastInDim S8x1 ![0] bcast_S8_S8x1_0
        (Host.reduce FloatOps.maximumf (Host.absf c) (constant S_ .f32 0xFF800000#32) reducesTo_S8x1024_S8_d1 h_S_)))

/-- The 8-bit activations: clip(round(c · scale_b), −128, 127) / scale_b. -/
def cQuant (c : (⟨S8x1024, .f32⟩ : BufTy).Contents (Elt F)) : (⟨S8x1024, .f32⟩ : BufTy).Contents (Elt F) :=
  Host.divf
    (minimumf (broadcastInDim S8x1024 ![] bcast_S_S8x1024 (id (constant S_ .f32 0x42FE0000#32)))
      (maximumf (broadcastInDim S8x1024 ![] bcast_S_S8x1024 (id (constant S_ .f32 0xC3000000#32)))
        (Host.roundeven (mulf c (broadcastInDim S8x1024 ![0, 1] bcast_S8x1_S8x1024_0_1 (cScale c))))))
    (broadcastInDim S8x1024 ![0, 1] bcast_S8x1_S8x1024_0_1 (cScale c))

/-- The embedding: the activations times the transposed weights, plus the bias along the rows. -/
def emb (c : (⟨S8x1024, .f32⟩ : BufTy).Contents (Elt F)) (w : (⟨S2048x1024, .f32⟩ : BufTy).Contents (Elt F))
    (b : (⟨S2048, .f32⟩ : BufTy).Contents (Elt F)) : (⟨S8x2048, .f32⟩ : BufTy).Contents (Elt F) :=
  addf (Host.dotGeneral dot_S8x1024_S2048x1024_S8x2048_1_1_0_0_n_n (some .fp32) (cQuant c) (wQuant w))
    (broadcastInDim S8x2048 ![0, 1] bcast_S1x2048_S8x2048_0_1 (broadcastInDim S1x2048 ![1] bcast_S2048_S1x2048_1 b))

/-- The scale handed to the launch: the embedding's left half as an [8, 1, 1024] array. -/
def scale (c : (⟨S8x1024, .f32⟩ : BufTy).Contents (Elt F)) (w : (⟨S2048x1024, .f32⟩ : BufTy).Contents (Elt F))
    (b : (⟨S2048, .f32⟩ : BufTy).Contents (Elt F)) : (⟨S8x1x1024, .f32⟩ : BufTy).Contents (Elt F) :=
  shapeCast S8x1x1024 (extractStridedSlice S8x1024 ![0, 0] (emb c w b) slices_S8x2048_S8x1024_0_0) shapeCasts_S8x1024_S8x1x1024

/-- The shift handed to the launch: the embedding's right half as an [8, 1, 1024] array. -/
def shift (c : (⟨S8x1024, .f32⟩ : BufTy).Contents (Elt F)) (w : (⟨S2048x1024, .f32⟩ : BufTy).Contents (Elt F))
    (b : (⟨S2048, .f32⟩ : BufTy).Contents (Elt F)) : (⟨S8x1x1024, .f32⟩ : BufTy).Contents (Elt F) :=
  shapeCast S8x1x1024 (extractStridedSlice S8x1024 ![0, 1024] (emb c w b) slices_S8x2048_S8x1024_0_1024) shapeCasts_S8x1024_S8x1x1024

/-- The norm weight handed to the launch: the vector as a [1, 1, 1024] array. -/
def weight (g : (⟨S1024, .f32⟩ : BufTy).Contents (Elt F)) : (⟨S1x1x1024, .f32⟩ : BufTy).Contents (Elt F) :=
  shapeCast S1x1x1024 g shapeCasts_S1024_S1x1x1024

variable (m : (ℓ : Loc nD τ sig) → Buf (Elt F) ℓ)

/-- The launch finds the norm weight's array at the reshaped argument. -/
theorem V_weight (c : Dev nD) :
    (V m c main_v31 : (⟨S1x1x1024, .f32⟩ : BufTy).Contents (Elt F)) = weight (m ((c : Thread nD τ).loc main_arg4)) := by
  dsimp only [Gen.V]
  simp only [Gen.hostOps0, Gen.hostOps0_1, Gen.hostOps0_2, Gen.hostOps0_3, Gen.hostOps0_4, Gen.hostOps0_5, Gen.hostOps0_6,
    Gen.hostOps0_7, Gen.hostOps0_8, Gen.hostOps0_9, Gen.hostOps0_10, Gen.hostOps0_11, Gen.hostOps0_12, List.flatten_cons,
    List.flatten_nil, List.append_nil, List.cons_append, List.nil_append]
  after_results_simp
  rfl

/-- The launch finds the scale's array at the projection's left half. -/
theorem V_scale (c : Dev nD) :
    (V m c main_v29 : (⟨S8x1x1024, .f32⟩ : BufTy).Contents (Elt F))
      = scale (m ((c : Thread nD τ).loc main_arg1)) (m ((c : Thread nD τ).loc main_arg2)) (m ((c : Thread nD τ).loc main_arg3)) := by
  dsimp only [Gen.V]
  simp only [Gen.hostOps0, Gen.hostOps0_1, Gen.hostOps0_2, Gen.hostOps0_3, Gen.hostOps0_4, Gen.hostOps0_5, Gen.hostOps0_6,
    Gen.hostOps0_7, Gen.hostOps0_8, Gen.hostOps0_9, Gen.hostOps0_10, Gen.hostOps0_11, Gen.hostOps0_12, List.flatten_cons,
    List.flatten_nil, List.append_nil, List.cons_append, List.nil_append]
  after_results_simp
  rfl

/-- The launch finds the shift's array at the projection's right half. -/
theorem V_shift (c : Dev nD) :
    (V m c main_v30 : (⟨S8x1x1024, .f32⟩ : BufTy).Contents (Elt F))
      = shift (m ((c : Thread nD τ).loc main_arg1)) (m ((c : Thread nD τ).loc main_arg2)) (m ((c : Thread nD τ).loc main_arg3)) := by
  dsimp only [Gen.V]
  simp only [Gen.hostOps0, Gen.hostOps0_1, Gen.hostOps0_2, Gen.hostOps0_3, Gen.hostOps0_4, Gen.hostOps0_5, Gen.hostOps0_6,
    Gen.hostOps0_7, Gen.hostOps0_8, Gen.hostOps0_9, Gen.hostOps0_10, Gen.hostOps0_11, Gen.hostOps0_12, List.flatten_cons,
    List.flatten_nil, List.append_nil, List.cons_append, List.nil_append]
  after_results_simp
  rfl

end Cert.AdaNorm.K

end
-- ==== Proof.KernelValue.lean ====
/-
  What the launch leaves in the kernel program's result array.

  The grid has a point per (batch row b, half of the sequence h).  At a point the body sees a [1, 2048, 1024] block of x —
  rows 2048·h … 2048·h + 2047 of batch row b —, row b of the scale and of the shift, and the norm weight, and stores, at
  (0, r, j) of its output block,
      x · rsqrt( (Σ_k x²) / 1024 + ε ) · weight(j) · (1 + scale(j)) + shift(j),
  the sum along the block's last axis, which is the whole last axis of x.  So every point writes the block of ONE whole
  array, the modulated normalisation of x by the scale and shift the launch found; the sixteen blocks tile the array, and
  the result array ends at that function of the arguments.
-/
import proofs.«180579_j17978733101754_2_alg».proof.Proof.Gen.KernelIdeal.Value
import proofs.«180579_j17978733101754_2_alg».proof.Proof.KHost
import proofs.«180579_j17978733101754_2_alg».proof.Proof.Spec
import Idealize.ShloMosaic.PureOps.Ideal.Laws
import Idealize.ShloMosaic.Lib.Pipeline.Value
import Idealize.ShloMosaic.Lib.ValueIdx

noncomputable section

namespace Cert.AdaNorm.K

open Cert.KernelIdeal Cert.KernelIdeal.Gen Idealize.ShloMosaic Idealize.ShloMosaic.TcCoe Idealize.SL.Sem
open Idealize.ShloMosaic.ValueIdx
open Idealize.ShloMosaic.Pipeline (Dat)

/-! ## The body's value at an index of its block -/

/-- The lane sum of the squares, at row r of the block. -/
theorem sumSq_row (P0 : FVec Ideal S1x2048x1024 .f32) (r : Fin 2048) :
    (multiReduction .add [2] S1x2048 (mulf P0 P0) 0x00000000#32 reduces_S1x2048x1024_S1x2048 (.inl rfl) rfl
      : FVec Ideal S1x2048 .f32) (ix2 0 r) = ∑ k : Fin 1024, P0 (ix3 0 r k) * P0 (ix3 0 r k) := by
  refine (Ideal.multiReduction_add_single (mulf P0 P0) 0x00000000#32 reduces_S1x2048x1024_S1x2048 (.inl rfl) rfl (ix2 0 r)).trans ?_
  refine Finset.sum_congr rfl fun k _ => ?_
  have e : reduces_S1x2048x1024_S1x2048.lift (ix2 0 r) k = ix3 0 r ⟨k.val, k.isLt⟩ :=
    funext fun a => Fin.ext (by match a with | ⟨0, _⟩ => rfl | ⟨1, _⟩ => rfl | ⟨2, _⟩ => rfl)
  rw [e]; rfl

/-- What the body stores at (0, r, j) of its block, from the four blocks it loads: x, the norm weight, the scale, the shift. -/
theorem body_at (P0 : FVec Ideal S1x2048x1024 .f32) (P1 P2 P3 : FVec Ideal S1x1x1024 .f32) (r : Fin 2048) (j : Fin 1024) :
    Value.E4 (F := Ideal) P0 P1 P2 P3 (ix3 0 r j)
      = P0 (ix3 0 r j)
          * Ideal.rsqrt (Ideal.div (∑ k : Fin 1024, P0 (ix3 0 r k) * P0 (ix3 0 r k)) (Ideal.ofBits .f32 0x44800000#32)
              + Ideal.ofBits .f32 0x358637BD#32)
          * P1 (ix3 0 0 j) * (Ideal.ofBits .f32 0x3F800000#32 + P2 (ix3 0 0 j)) + P3 (ix3 0 0 j) := by
  have e0 : Value.ix4_0 (ix3 (0 : Fin 1) r j) = ix3 0 r j :=
    funext fun a => Fin.ext (by match a with | ⟨0, _⟩ => rfl | ⟨1, _⟩ => rfl | ⟨2, _⟩ => rfl)
  have e1 : Value.ix4_1 (ix3 (0 : Fin 1) r j) = ix2 0 r :=
    funext fun a => Fin.ext (by match a with | ⟨0, _⟩ => rfl | ⟨1, _⟩ => rfl)
  have e2 : Value.ix4_2 (ix3 (0 : Fin 1) r j) = ix3 0 0 j :=
    funext fun a => Fin.ext (by match a with | ⟨0, _⟩ => rfl | ⟨1, _⟩ => rfl | ⟨2, _⟩ => rfl)
  have e3 : Value.ix4_3 (ix3 (0 : Fin 1) r j) = ix3 0 0 j :=
    funext fun a => Fin.ext (by match a with | ⟨0, _⟩ => rfl | ⟨1, _⟩ => rfl | ⟨2, _⟩ => rfl)
  have e4 : Value.ix4_4 (ix3 (0 : Fin 1) r j) = ix3 0 0 j :=
    funext fun a => Fin.ext (by match a with | ⟨0, _⟩ => rfl | ⟨1, _⟩ => rfl | ⟨2, _⟩ => rfl)
  unfold Value.E4
  rw [e0, e1, e2, e3, e4, sumSq_row]
  rfl

/-! ## The blocks the body loads, as entries of the arrays the launch finds -/

theorem zero3 : (![0, 0, 0] : Fin 3 → Nat) = fun _ => 0 := funext fun a => by fin_cases a <;> rfl

variable (m : (ℓ : Loc nD τ sig) → Buf (Elt Ideal) ℓ) (ρ : Dev nD → PrngReg)

/-- The printed index maps, decided over the sixteen points: x and the output move together over (b, h); the scale and
    the shift follow b only; the weight stays; the output's block coordinates stay in their ranges. -/
theorem idx_facts : ∀ t : Fin cfg0.N,
    win0_0.index t (0 : Fin 3) = win0_4.index t (0 : Fin 3) ∧ win0_0.index t (1 : Fin 3) = win0_4.index t (1 : Fin 3)
    ∧ win0_0.index t (2 : Fin 3) = 0
    ∧ win0_1.index t (0 : Fin 3) = win0_4.index t (0 : Fin 3) ∧ win0_1.index t (1 : Fin 3) = 0 ∧ win0_1.index t (2 : Fin 3) = 0
    ∧ win0_2.index t (0 : Fin 3) = win0_4.index t (0 : Fin 3) ∧ win0_2.index t (1 : Fin 3) = 0 ∧ win0_2.index t (2 : Fin 3) = 0
    ∧ win0_3.index t (0 : Fin 3) = 0 ∧ win0_3.index t (1 : Fin 3) = 0 ∧ win0_3.index t (2 : Fin 3) = 0
    ∧ win0_4.index t (0 : Fin 3) < 8 ∧ win0_4.index t (1 : Fin 3) < 2 ∧ win0_4.index t (2 : Fin 3) = 0 :=
  (by decide +kernel : ∀ t : Fin grid0.N, _)

/-- Every (b, h) is some point's output block. -/
theorem idx_onto : ∀ (q0 : Fin 8) (q1 : Fin 2), ∃ t : Fin cfg0.N, win0_4.index t = ![q0.val, q1.val, 0] :=
  (by decide +kernel : ∀ (q0 : Fin 8) (q1 : Fin 2), ∃ t : Fin grid0.N, win0_4.index t = ![q0.val, q1.val, 0])

/-- The block of x at a point, at z, is x at (b + z₀, 2048·h + z₁, z₂). -/
theorem xblk_apply (c : Dev nD) (t : Fin cfg0.N) (z : S1x2048x1024.Idx) (k : S8x4096x1024.Idx)
    (h0 : (k 0).val = win0_4.index t (0 : Fin 3) + (z 0).val)
    (h1 : (k 1).val = win0_4.index t (1 : Fin 3) * 2048 + (z 1).val) (h2 : (k 2).val = (z 2).val) :
    (iblk m c 0 t : FVec Ideal S1x2048x1024 .f32) z = (m ((c : Thread nD τ).loc main_arg0) : S8x4096x1024.Idx → EReal) k := by
  obtain ⟨e0, e1, e2, -⟩ := idx_facts t
  unfold iblk
  rw [View.read_apply]
  show V m c main_arg0 _ = _
  rw [V_main_arg0]
  congr 1
  funext a; apply Fin.ext
  match a with
  | ⟨0, _⟩ => show win0_0.index t (0 : Fin 3) * 1 + 1 * (z 0).val = (k 0).val; omega
  | ⟨1, _⟩ => show win0_0.index t (1 : Fin 3) * 2048 + 1 * (z 1).val = (k 1).val; omega
  | ⟨2, _⟩ => show win0_0.index t (2 : Fin 3) * 1024 + 1 * (z 2).val = (k 2).val; omega

/-- The block of the scale at a point, at z, is the scale at (b + z₀, z₁, z₂). -/
theorem scblk_apply (c : Dev nD) (t : Fin cfg0.N) (z : S1x1x1024.Idx) (k : S8x1x1024.Idx)
    (h0 : (k 0).val = win0_4.index t (0 : Fin 3) + (z 0).val) (h1 : (k 1).val = (z 1).val) (h2 : (k 2).val = (z 2).val) :
    (iblk m c 1 t : FVec Ideal S1x1x1024 .f32) z = (V m c main_v29 : S8x1x1024.Idx → EReal) k := by
  obtain ⟨-, -, -, e0, e1, e2, -⟩ := idx_facts t
  unfold iblk
  rw [View.read_apply]
  show V m c main_v29 _ = V m c main_v29 _
  congr 1
  funext a; apply Fin.ext
  match a with
  | ⟨0, _⟩ => show win0_1.index t (0 : Fin 3) * 1 + 1 * (z 0).val = (k 0).val; omega
  | ⟨1, _⟩ => show win0_1.index t (1 : Fin 3) * 1 + 1 * (z 1).val = (k 1).val; omega
  | ⟨2, _⟩ => show win0_1.index t (2 : Fin 3) * 1024 + 1 * (z 2).val = (k 2).val; omega

/-- The block of the shift at a point, at z, is the shift at (b + z₀, z₁, z₂). -/
theorem shblk_apply (c : Dev nD) (t : Fin cfg0.N) (z : S1x1x1024.Idx) (k : S8x1x1024.Idx)
    (h0 : (k 0).val = win0_4.index t (0 : Fin 3) + (z 0).val) (h1 : (k 1).val = (z 1).val) (h2 : (k 2).val = (z 2).val) :
    (iblk m c 2 t : FVec Ideal S1x1x1024 .f32) z = (V m c main_v30 : S8x1x1024.Idx → EReal) k := by
  obtain ⟨-, -, -, -, -, -, e0, e1, e2, -⟩ := idx_facts t
  unfold iblk
  rw [View.read_apply]
  show V m c main_v30 _ = V m c main_v30 _
  congr 1
  funext a; apply Fin.ext
  match a with
  | ⟨0, _⟩ => show win0_2.index t (0 : Fin 3) * 1 + 1 * (z 0).val = (k 0).val; omega
  | ⟨1, _⟩ => show win0_2.index t (1 : Fin 3) * 1 + 1 * (z 1).val = (k 1).val; omega
  | ⟨2, _⟩ => show win0_2.index t (2 : Fin 3) * 1024 + 1 * (z 2).val = (k 2).val; omega

/-- The block of the norm weight at every point is the whole [1, 1, 1024] array. -/
theorem wtblk_apply (c : Dev nD) (t : Fin cfg0.N) (z : S1x1x1024.Idx) :
    (iblk m c 3 t : FVec Ideal S1x1x1024 .f32) z = (V m c main_v31 : S1x1x1024.Idx → EReal) z := by
  obtain ⟨-, -, -, -, -, -, -, -, -, e0, e1, e2, -⟩ := idx_facts t
  unfold iblk
  rw [View.read_apply]
  show V m c main_v31 _ = V m c main_v31 _
  congr 1
  funext a; apply Fin.ext
  match a with
  | ⟨0, _⟩ => show win0_3.index t (0 : Fin 3) * 1 + 1 * (z 0).val = (z 0).val; omega
  | ⟨1, _⟩ => show win0_3.index t (1 : Fin 3) * 1 + 1 * (z 1).val = (z 1).val; omega
  | ⟨2, _⟩ => show win0_3.index t (2 : Fin 3) * 1024 + 1 * (z 2).val = (z 2).val; omega

/-- The reshaped norm weight at (0, 0, j) is the vector at j. -/
theorem weight_apply (g : (⟨S1024, .f32⟩ : BufTy).Contents (Elt Ideal)) (j : Fin 1024) :
    weight g (ix3 0 0 j) = g (ix1 j) := by
  unfold weight
  refine shapeCast_apply _ _ _ (ix1 j) ?_
  rw [Shape.rowMajor_val_one, Shape.rowMajor_val_three]
  show j.val = (0 * 1 + 0) * 1024 + j.val
  omega

/-! ## The result array -/

/-- The array every point writes a block of: the modulated normalisation of x by the scale and the shift the launch finds. -/
def result (c : Dev nD) : Buf (Elt Ideal) ((c : Thread nD τ).loc main_v32) :=
  modNorm (m ((c : Thread nD τ).loc main_arg0)) (V m c main_v29) (V m c main_v30) (m ((c : Thread nD τ).loc main_arg4))

/-- The body's value at (0, r, j) of the block of point t is the result array at (b, 2048·h + r, j). -/
theorem point_value (c : Dev nD) (t : Fin cfg0.N) (y : S1x2048x1024.Idx) (i : S8x4096x1024.Idx)
    (h0 : (i 0).val = win0_4.index t (0 : Fin 3)) (h1 : (i 1).val = win0_4.index t (1 : Fin 3) * 2048 + (y 1).val)
    (h2 : (i 2).val = (y 2).val) :
    Value.E4 (F := Ideal) (iblk m c 0 t) (iblk m c 3 t) (iblk m c 1 t) (iblk m c 2 t) y = result m c i := by
  have hy0 : (y 0).val < 1 := (y 0).isLt
  obtain ⟨r, j, rfl⟩ : ∃ (r : Fin 2048) (j : Fin 1024), y = ix3 0 r j :=
    ⟨y 1, y 2, funext fun a => Fin.ext (by match a with | ⟨0, _⟩ => (show (y 0).val = 0; omega) | ⟨1, _⟩ => rfl | ⟨2, _⟩ => rfl)⟩
  obtain ⟨b, s, j', rfl⟩ : ∃ (b : Fin 8) (s : Fin 4096) (j' : Fin 1024), i = ix3 b s j' := ⟨i 0, i 1, i 2, eq_ix3 i⟩
  obtain rfl : j' = j := Fin.ext h2
  have hb : b.val = win0_4.index t (0 : Fin 3) := h0
  have hs : s.val = win0_4.index t (1 : Fin 3) * 2048 + r.val := h1
  refine (body_at _ _ _ _ r j').trans ?_
  have hx : ∀ k : Fin 1024, (iblk m c 0 t : FVec Ideal S1x2048x1024 .f32) (ix3 0 r k)
      = (m ((c : Thread nD τ).loc main_arg0) : S8x4096x1024.Idx → EReal) (ix3 b s k) := fun k =>
    xblk_apply m c t (ix3 0 r k) (ix3 b s k) (by show b.val = _ + 0; omega) (by show s.val = _ + r.val; omega) rfl
  have hw : (iblk m c 3 t : FVec Ideal S1x1x1024 .f32) (ix3 0 0 j')
      = (m ((c : Thread nD τ).loc main_arg4) : S1024.Idx → EReal) (ix1 j') := by
    rw [wtblk_apply, V_weight, weight_apply]
  have hsc : (iblk m c 1 t : FVec Ideal S1x1x1024 .f32) (ix3 0 0 j') = (V m c main_v29 : S8x1x1024.Idx → EReal) (ix3 b 0 j') :=
    scblk_apply m c t (ix3 0 0 j') (ix3 b 0 j') (by show b.val = _ + 0; omega) rfl rfl
  have hsh : (iblk m c 2 t : FVec Ideal S1x1x1024 .f32) (ix3 0 0 j') = (V m c main_v30 : S8x1x1024.Idx → EReal) (ix3 b 0 j') :=
    shblk_apply m c t (ix3 0 0 j') (ix3 b 0 j') (by show b.val = _ + 0; omega) rfl rfl
  simp only [hx, hw, hsc, hsh]
  rfl

/-- The result array in terms of the arguments alone: the scale and the shift the launch finds are the projection's halves. -/
theorem result_eq (c : Dev nD) :
    result m c = modNorm (m ((c : Thread nD τ).loc main_arg0))
      (scale (m ((c : Thread nD τ).loc main_arg1)) (m ((c : Thread nD τ).loc main_arg2)) (m ((c : Thread nD τ).loc main_arg3)))
      (shift (m ((c : Thread nD τ).loc main_arg1)) (m ((c : Thread nD τ).loc main_arg2)) (m ((c : Thread nD τ).loc main_arg3)))
      (m ((c : Thread nD τ).loc main_arg4)) := by
  unfold result
  rw [V_scale, V_shift]

/-- What point t writes back is its block of the result array. -/
theorem flushed_eq (c : Dev nD) (t : Fin cfg0.N) :
    (dats m 0 c).flushed 4 t = ((cfg0.win 4).blk t).view.read (Elt Ideal) (result m c) := by
  obtain ⟨-, -, -, -, -, -, -, -, -, -, -, -, hb, hh, hz⟩ := idx_facts t
  rw [Value.flushed4]
  unfold out0_4
  funext y
  have hy0 : (y 0).val < 1 := (y 0).isLt
  show View.canon [⟨r0_0, k0_pay1 (View.ld (iblk m c 0 t) r0_0) (View.ld (iblk m c 3 t) r0_1) (View.ld (iblk m c 1 t) r0_1)
      (View.ld (iblk m c 2 t) r0_1)⟩] y = result m c (((cfg0.win 4).blk t).view.emb y)
  refine (Value.canon4_eq _ _ _ _ y).trans ?_
  simp only [View.ld_unit_zero (S := S1x2048x1024) zero3, View.ld_unit_zero (S := S1x1x1024) zero3]
  exact point_value m c t y _ (by show win0_4.index t (0 : Fin 3) * 1 + 1 * (y 0).val = _; omega)
    (by show win0_4.index t (1 : Fin 3) * 2048 + 1 * (y 1).val = _; omega)
    (by show win0_4.index t (2 : Fin 3) * 1024 + 1 * (y 2).val = _; omega)

/-- An index of the array is in point t's block iff each coordinate is in the block's range on its axis. -/
theorem mem_blk (t : Fin cfg0.N) (i : S8x4096x1024.Idx) :
    i ∈ ((cfg0.win 4).blk t).view.set ↔ ∀ a : Fin 3, win0_4.index t a * S1x2048x1024.size a ≤ (i a).val
      ∧ (i a).val < win0_4.index t a * S1x2048x1024.size a + S1x2048x1024.size a := by
  show i ∈ ((View.whole main_v32).slice (win0_4.rect t)).set ↔ _
  rw [View.set_slice_whole, Rect.mem_set_unit]
  exact Iff.rfl

/-- Every index of the array is in the block of the point (b, s / 2048). -/
theorem cover (i : S8x4096x1024.Idx) :
    ∃ t : Fin cfg0.N, (cfg0.win 4).flush t = true ∧ i ∈ ((cfg0.win 4).blk t).view.set := by
  have hi0 : (i 0).val < 8 := (i 0).isLt
  have hi1 : (i 1).val < 4096 := (i 1).isLt
  have hi2 : (i 2).val < 1024 := (i 2).isLt
  obtain ⟨t, ht⟩ := idx_onto ⟨(i 0).val, hi0⟩ ⟨(i 1).val / 2048, by omega⟩
  have q0 : win0_4.index t (0 : Fin 3) = (i 0).val := congrFun ht 0
  have q1 : win0_4.index t (1 : Fin 3) = (i 1).val / 2048 := congrFun ht 1
  have q2 : win0_4.index t (2 : Fin 3) = 0 := congrFun ht 2
  refine ⟨t, flush0_4 t, ?_⟩
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 2048 ≤ (i 1).val ∧ (i 1).val < win0_4.index t (1 : Fin 3) * 2048 + 2048; omega
  | ⟨2, _⟩ => show win0_4.index t (2 : Fin 3) * 1024 ≤ (i 2).val ∧ (i 2).val < win0_4.index t (2 : Fin 3) * 1024 + 1024; omega

/-- The result array after the launch. -/
theorem final (c : Dev nD) : (dats m 0 c).arrAt 4 cfg0.N = result m c :=
  (dats m 0 c).arrAt_eq_of_cover 4 (result m c) (fun t _ => flushed_eq m c t) cover

/-- The kernel program's run: the result array at the modulated normalisation, the arguments unchanged. -/
theorem run : θ_run defs (onTc (τ := τ) (main (F := Ideal))) ⟨m, fun _ => 0, ρ⟩ fun r => ∀ c : Dev nD,
      r.2.mem ((c : Thread nD τ).loc main_v32) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.AdaNorm.K

end
-- ==== Proof.LibFiniteAll.lean ====
/-
  A general lemma, for a float array of any shape at the extended reals: when the reduction "all entries have absolute
  value strictly below +∞" comes out 1, every entry of the array is a real number. The test takes |x| entry by entry
  (max x (-x)), compares it with +∞ (the pattern 0x7F800000), strictly below, and folds the results with "and" from 1
  over all axes. The fold being 1, every entry's comparison is 1, so max (x i) (-(x i)) < ⊤, so x i is neither ⊤ nor
  ⊥: it is a real number.
-/
import Idealize.ShloMosaic.PureOps.Ideal
import Idealize.ShloMosaic.Lib.ValueIdx
import Idealize.ShloMosaic.Lib.ReduceAll

noncomputable section

namespace Cert.Lib.FiniteAll

open Idealize.ShloMosaic Idealize.ShloMosaic.ValueIdx

/-- The shape with no axes has one index. -/
instance : Subsingleton (⟨0, ![]⟩ : Shape).Idx := ⟨fun a b => funext fun d => d.elim0⟩

/-- The pattern 0x7F800000 denotes +∞. -/
theorem inf_eq_top : Ideal.ofBits .f32 0x7F800000#32 = (⊤ : EReal) := by simp [Ideal.ofBits, Ideal.ieee]

/-- An extended real whose absolute value is strictly below +∞ is a real number. -/
theorem real_of_abs_lt (x : EReal)
    (h : Ideal.cmp .olt (max x (-x)) (Ideal.ofBits .f32 0x7F800000#32) = 1#1) : ∃ r : ℝ, x = (r : EReal) := by
  rw [inf_eq_top] at h
  unfold Ideal.cmp at h
  induction x using EReal.rec with
  | bot => simp at h
  | coe r => exact ⟨r, rfl⟩
  | top => simp at h

/-- The all-of test of one array: when it comes out 1, every entry of the array is a real number. -/
theorem real_of_all {s : Shape} {axes : List (Fin s.rank)} (x : FVec Ideal s .f32)
    (hb : (⟨0, ![]⟩ : Shape).BroadcastsInDim s (![] : Fin 0 → Fin s.rank))
    (hr : s.ReducesTo axes (⟨0, ![]⟩ : Shape)) (hu : 0 < (⟨0, ![]⟩ : Shape).numel)
    (e : Host.reduce IntOp.andi
        (cmpf .olt (Host.absf x) (broadcastInDim s ![] hb (constant (F := Ideal) (⟨0, ![]⟩ : Shape) .f32 0x7F800000#32)))
        (constantI (⟨0, ![]⟩ : Shape) 1 1#1) hr hu ix0 = 1#1)
    (i : s.Idx) : ∃ r : ℝ, x i = (r : EReal) :=
  real_of_abs_lt (x i) (Host.reduce_andi_all _ _ hr hu ix0 e i)

end Cert.Lib.FiniteAll

end
-- ==== Proof.Finite.lean ====
/-
  What the precondition gives: every entry of the conditioning array and of the projection weights is a real number.

  The precondition is the conjunction, over the five float arguments, of "every entry's absolute value is strictly below
  +∞".  Its value being 1, each conjunct is 1, and the conjuncts of the second and third arguments say that their entries
  are neither +∞ nor −∞.
-/
import proofs.«180579_j17978733101754_2_alg».proof.Pre_finite_inputs
import proofs.«180579_j17978733101754_2_alg».proof.Proof.LibFiniteAll
import Idealize.ShloMosaic.Lib.Affine

noncomputable section

namespace Cert.AdaNorm

open Idealize.ShloMosaic Idealize.ShloMosaic.ValueIdx

/-- Under the precondition the entries of the second and of the third argument are real numbers. -/
theorem real_of_pre [hP : Cert.Pre_finite_inputs.Facts]
    (a0 : FVec Ideal Cert.Pre_finite_inputs.S8x4096x1024 .f32) (a1 : FVec Ideal Cert.Pre_finite_inputs.S8x1024 .f32)
    (a2 : FVec Ideal Cert.Pre_finite_inputs.S2048x1024 .f32) (a3 : FVec Ideal Cert.Pre_finite_inputs.S2048 .f32)
    (a4 : FVec Ideal Cert.Pre_finite_inputs.S1024 .f32)
    (h : Cert.Pre_finite_inputs.fn (F := Ideal) a0 a1 a2 a3 a4 = fun _ => 1#1) :
    (∀ i, ∃ r : ℝ, a1 i = (r : EReal)) ∧ (∀ i, ∃ r : ℝ, a2 i = (r : EReal)) := by
  have h0 := congrFun h ix0
  dsimp only [Cert.Pre_finite_inputs.fn, Cert.Pre_finite_inputs.fn_part1] at h0
  obtain ⟨h18, -⟩ := IntOp.andi_eq_one.1 h0
  obtain ⟨h13, -⟩ := IntOp.andi_eq_one.1 h18
  obtain ⟨h8, h12⟩ := IntOp.andi_eq_one.1 h13
  obtain ⟨-, h7⟩ := IntOp.andi_eq_one.1 h8
  exact ⟨fun i => Cert.Lib.FiniteAll.real_of_all a1 _ _ _ h7 i, fun i => Cert.Lib.FiniteAll.real_of_all a2 _ _ _ h12 i⟩

end Cert.AdaNorm

end
-- ==== Proof.LibRowsDot.lean ====
/-
  The host's dot product of an m×k matrix with the ROWS of an n×k matrix (both operands contracted along their
  second axis: the product of the first with the transpose of the second), read at one entry at the ideal values and
  generic in the extents and the operands' formats: entry (a, b) is the sum over the contracted coordinate c of
  A(a,c)·B(b,c).
-/
import Idealize.ShloMosaic.PureOps.Ideal
import Idealize.ShloMosaic.PureOps.Ideal.Laws
import Idealize.ShloMosaic.Lib.ValueIdx

noncomputable section

namespace Cert.RowsDot

open Idealize.ShloMosaic Idealize.ShloMosaic.ValueIdx

variable {m k n : ℕ} (w : DotDims.WF ⟨2, ![m, k]⟩ ⟨2, ![n, k]⟩ ⟨2, ![m, n]⟩ [1] [1] [0] [0] [] [])

/-- The left operand's index at output entry (a, b) and contracted coordinate c is (a, c). -/
theorem rows_lhsIdx (a : Fin m) (b : Fin n) (c : Fin k) :
    (⟨[1], [1], [0], [0], [], [], w⟩ : DotDims ⟨2, ![m, k]⟩ ⟨2, ![n, k]⟩ ⟨2, ![m, n]⟩).lhsIdx (ix2 a b)
      ((contrEquiv1 (⟨[1], [1], [0], [0], [], [], w⟩ : DotDims ⟨2, ![m, k]⟩ ⟨2, ![n, k]⟩ ⟨2, ![m, n]⟩) k rfl rfl).symm c) = ix2 a c := by
  have c2 := contrEquiv1_symm_val
    (⟨[1], [1], [0], [0], [], [], w⟩ : DotDims ⟨2, ![m, k]⟩ ⟨2, ![n, k]⟩ ⟨2, ![m, n]⟩) k rfl rfl c
  funext ax; apply Fin.ext
  match ax with
  | ⟨0, _⟩ => simp [DotDims.lhsIdx]; rfl
  | ⟨1, _⟩ => simp [DotDims.lhsIdx]; exact c2

/-- The right operand's index at output entry (a, b) and contracted coordinate c is (b, c). -/
theorem rows_rhsIdx (a : Fin m) (b : Fin n) (c : Fin k) :
    (⟨[1], [1], [0], [0], [], [], w⟩ : DotDims ⟨2, ![m, k]⟩ ⟨2, ![n, k]⟩ ⟨2, ![m, n]⟩).rhsIdx (ix2 a b)
      ((contrEquiv1 (⟨[1], [1], [0], [0], [], [], w⟩ : DotDims ⟨2, ![m, k]⟩ ⟨2, ![n, k]⟩ ⟨2, ![m, n]⟩) k rfl rfl).symm c) = ix2 b c := by
  have c2 := contrEquiv1_symm_val
    (⟨[1], [1], [0], [0], [], [], w⟩ : DotDims ⟨2, ![m, k]⟩ ⟨2, ![n, k]⟩ ⟨2, ![m, n]⟩) k rfl rfl c
  funext ax; apply Fin.ext
  match ax with
  | ⟨0, _⟩ => simp [DotDims.rhsIdx]; rfl
  | ⟨1, _⟩ => simp [DotDims.rhsIdx]; exact c2

/-- The host's dot product of an m×k matrix with the rows of an n×k matrix, read at entry (a, b). -/
theorem hostDot_rows_apply {φ₁ φ₂ : FTy} (A : FVec Ideal ⟨2, ![m, k]⟩ φ₁) (B : FVec Ideal ⟨2, ![n, k]⟩ φ₂) (a : Fin m) (b : Fin n) :
    Host.dotGeneral (⟨[1], [1], [0], [0], [], [], w⟩ : DotDims ⟨2, ![m, k]⟩ ⟨2, ![n, k]⟩ ⟨2, ![m, n]⟩) none A B (ix2 a b)
      = ∑ c : Fin k, A (ix2 a c) * B (ix2 b c) := by
  show FloatOps.dotGeneral _ none .single A B (ix2 a b) = _
  rw [Ideal.dotGeneral_apply,
    ← Equiv.sum_comp (contrEquiv1 (⟨[1], [1], [0], [0], [], [], w⟩ : DotDims _ _ _) k rfl rfl).symm]
  exact Finset.sum_congr rfl fun c _ => by rw [rows_lhsIdx w a b c, rows_rhsIdx w a b c]

end Cert.RowsDot

end
-- ==== Proof.LibRowsDotPrec.lean ====
/-
  Two general lemmas about host operations read at an index, at the ideal values.

  * The host's product of an m×k matrix with the ROWS of an n×k matrix (both operands contracted along their second axis,
    x @ W.T), read at entry (a, b), is Σ_c A(a,c)·B(b,c) WHATEVER precision the operation names (none, or a named one
    such as fp32: at the ideal values the precision changes nothing); generic in m, k, n and the operands' formats.
  * A scalar broadcast to any shape (broadcast_in_dim with no dimensions) read at any index is the scalar.
-/
import proofs.«180579_j17978733101754_2_alg».proof.Proof.LibRowsDot
import Idealize.ShloMosaic.PureOps.Ideal.Laws
import Idealize.ShloMosaic.Lib.Pipeline.Value
import Idealize.ShloMosaic.Lib.ValueIdx

noncomputable section

namespace Cert.Lib.HostForms

open Idealize.ShloMosaic Idealize.ShloMosaic.ValueIdx

/-- A scalar broadcast to any shape reads the scalar. -/
theorem bcast_scalar_apply {α : Type} {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 (fun a => a.elim0)

/-- The host's product of an m×k matrix with the rows of an n×k matrix at entry (a, b), whatever precision the operation names:
    the sum over the contracted coordinate of A(a,c)·B(b,c). -/
theorem hostDot_rows_prec {m k n : ℕ} (w : DotDims.WF ⟨2, ![m, k]⟩ ⟨2, ![n, k]⟩ ⟨2, ![m, n]⟩ [1] [1] [0] [0] [] [])
    (prec : Option ContractPrecision) {φ₁ φ₂ : FTy} (A : FVec Ideal ⟨2, ![m, k]⟩ φ₁) (B : FVec Ideal ⟨2, ![n, k]⟩ φ₂)
    (a : Fin m) (b : Fin n) :
    Host.dotGeneral (⟨[1], [1], [0], [0], [], [], w⟩ : DotDims ⟨2, ![m, k]⟩ ⟨2, ![n, k]⟩ ⟨2, ![m, n]⟩) prec A B (ix2 a b)
      = ∑ c : Fin k, A (ix2 a c) * B (ix2 b c) := by
  show FloatOps.dotGeneral _ prec .single A B (ix2 a b) = _
  rw [Ideal.dotGeneral_apply,
    ← Equiv.sum_comp (contrEquiv1 (⟨[1], [1], [0], [0], [], [], w⟩ : DotDims _ _ _) k rfl rfl).symm]
  exact Finset.sum_congr rfl fun c _ => by rw [Cert.RowsDot.rows_lhsIdx w a b c, Cert.RowsDot.rows_rhsIdx w a b c]

end Cert.Lib.HostForms

end
-- ==== Proof.HostRead.lean ====
/-
  The kernel program's projection read at an index.

  Entry (b, k) of the 8-bit activations is clip(round(c(b,k) · s_b), −128, 127) / s_b with the row's scale
  s_b = 127 / max(ε, max_k |c(b,k)|); entry (b, J) of the embedding is Σ_k activations(b,k) · weights(J,k) + bias(J); and
  the scale and the shift handed to the launch are the embedding's columns j and 1024 + j at (b, 0, j).
-/
import proofs.«180579_j17978733101754_2_alg».proof.Proof.KHost
import proofs.«180579_j17978733101754_2_alg».proof.Proof.LibRowsDotPrec
import Idealize.ShloMosaic.PureOps.Ideal.Laws
import Idealize.ShloMosaic.Lib.Pipeline.Value
import Idealize.ShloMosaic.Lib.ValueIdx

noncomputable section

namespace Cert.AdaNorm

open Idealize.ShloMosaic Idealize.ShloMosaic.ValueIdx Cert.Lib.HostForms

namespace K

open Cert.KernelIdeal Cert.KernelIdeal.Gen

/-- The largest absolute value in row b of c, as the host folds it from −∞. -/
def rowMax (c : (⟨S8x1024, .f32⟩ : BufTy).Contents (Elt Ideal)) (b : Fin 8) : Ideal .f32 :=
  Host.reduce (α := Ideal .f32) (FloatOps.maximumf (F := Ideal) (φ := .f32)) (Host.absf (F := Ideal) c)
    (constant (F := Ideal) S_ .f32 0xFF800000#32) reducesTo_S8x1024_S8_d1 h_S_ (ix1 b)

/-- The activations' scale of row b: 127 / max(ε, the row's largest absolute value). -/
theorem cScale_apply (c : (⟨S8x1024, .f32⟩ : BufTy).Contents (Elt Ideal)) (b : Fin 8) :
    cScale (F := Ideal) c (ix2 b 0)
      = FloatOps.hostDivf (Ideal.ofBits .f32 0x42FE0000#32) (FloatOps.maximumf (Ideal.ofBits .f32 0x3727C5AC#32) (rowMax c b)) := by
  unfold cScale
  show FloatOps.hostDivf (broadcastInDim S8x1 ![] bcast_S_S8x1 (constant (F := Ideal) S_ .f32 0x42FE0000#32) (ix2 b 0))
    (FloatOps.maximumf (broadcastInDim S8x1 ![] bcast_S_S8x1 (id (constant (F := Ideal) S_ .f32 0x3727C5AC#32)) (ix2 b 0))
      (broadcastInDim S8x1 ![0] bcast_S8_S8x1_0
        (Host.reduce FloatOps.maximumf (Host.absf (F := Ideal) c) (constant (F := Ideal) S_ .f32 0xFF800000#32) reducesTo_S8x1024_S8_d1 h_S_) (ix2 b 0))) = _
  rw [bcast_scalar_apply, bcast_scalar_apply,
    broadcastInDim_apply _ bcast_S8_S8x1_0 _ (ix2 b 0) (ix1 b) (fun a => match a with
      | ⟨0, _⟩ => by show b.val = if (8 : Nat) = 1 then 0 else b.val; rw [if_neg (by decide)])]
  rfl

/-- Entry (b, k) of the 8-bit activations. -/
theorem cQuant_apply (c : (⟨S8x1024, .f32⟩ : BufTy).Contents (Elt Ideal)) (b : Fin 8) (k : Fin 1024) :
    cQuant (F := Ideal) c (ix2 b k)
      = FloatOps.hostDivf (FloatOps.minimumf (Ideal.ofBits .f32 0x42FE0000#32) (FloatOps.maximumf (Ideal.ofBits .f32 0xC3000000#32)
          (FloatOps.hostUnary .roundeven (FloatOps.mulf (c (ix2 b k)) (cScale (F := Ideal) c (ix2 b 0))))))
          (cScale (F := Ideal) c (ix2 b 0)) := by
  have e : ∀ y : (⟨S8x1, .f32⟩ : BufTy).Contents (Elt Ideal),
      broadcastInDim S8x1024 ![0, 1] bcast_S8x1_S8x1024_0_1 y (ix2 b k) = y (ix2 b 0) := fun y =>
    broadcastInDim_apply _ bcast_S8x1_S8x1024_0_1 y (ix2 b k) (ix2 b 0) (fun a => match a with
      | ⟨0, _⟩ => by show b.val = if (8 : Nat) = 1 then 0 else b.val; rw [if_neg (by decide)]
      | ⟨1, _⟩ => by show 0 = if (1 : Nat) = 1 then 0 else k.val; rw [if_pos rfl])
  unfold cQuant
  show FloatOps.hostDivf (FloatOps.minimumf (broadcastInDim S8x1024 ![] bcast_S_S8x1024 (id (constant (F := Ideal) S_ .f32 0x42FE0000#32)) (ix2 b k))
      (FloatOps.maximumf (broadcastInDim S8x1024 ![] bcast_S_S8x1024 (id (constant (F := Ideal) S_ .f32 0xC3000000#32)) (ix2 b k))
        (FloatOps.hostUnary .roundeven (FloatOps.mulf (c (ix2 b k))
          (broadcastInDim S8x1024 ![0, 1] bcast_S8x1_S8x1024_0_1 (cScale (F := Ideal) c) (ix2 b k))))))
    (broadcastInDim S8x1024 ![0, 1] bcast_S8x1_S8x1024_0_1 (cScale (F := Ideal) c) (ix2 b k)) = _
  rw [bcast_scalar_apply, bcast_scalar_apply, e]
  rfl

/-- Entry (b, J) of the embedding: the contraction of the activations' row b with the weights' row J, plus the bias at J. -/
theorem emb_apply (c : (⟨S8x1024, .f32⟩ : BufTy).Contents (Elt Ideal)) (w : (⟨S2048x1024, .f32⟩ : BufTy).Contents (Elt Ideal))
    (bias : (⟨S2048, .f32⟩ : BufTy).Contents (Elt Ideal)) (b : Fin 8) (J : Fin 2048) :
    emb (F := Ideal) c w bias (ix2 b J)
      = (∑ k : Fin 1024, cQuant (F := Ideal) c (ix2 b k) * wQuant (F := Ideal) w (ix2 J k)) + bias (ix1 J) := by
  unfold emb
  generalize cQuant (F := Ideal) c = A
  generalize wQuant (F := Ideal) w = B
  show Host.dotGeneral (F := Ideal) dot_S8x1024_S2048x1024_S8x2048_1_1_0_0_n_n (some .fp32) A B (ix2 b J)
    + broadcastInDim S8x2048 ![0, 1] bcast_S1x2048_S8x2048_0_1 (broadcastInDim S1x2048 ![1] bcast_S2048_S1x2048_1 bias) (ix2 b J) = _
  rw [broadcastInDim_apply _ bcast_S1x2048_S8x2048_0_1 _ (ix2 b J) (ix2 0 J) (fun a => match a with
      | ⟨0, _⟩ => by show 0 = if (1 : Nat) = 1 then 0 else b.val; rw [if_pos rfl]
      | ⟨1, _⟩ => by show J.val = if (2048 : Nat) = 1 then 0 else J.val; rw [if_neg (by decide)]),
    broadcastInDim_apply _ bcast_S2048_S1x2048_1 bias (ix2 0 J) (ix1 J) (fun a => match a with
      | ⟨0, _⟩ => by show J.val = if (2048 : Nat) = 1 then 0 else J.val; rw [if_neg (by decide)])]
  refine congrArg (· + bias (ix1 J)) ?_
  exact hostDot_rows_prec dot_S8x1024_S2048x1024_S8x2048_1_1_0_0_n_n_wf (some .fp32) A B b J

/-- The scale handed to the launch at (b, 0, j) is the embedding at column j. -/
theorem scale_apply (c : (⟨S8x1024, .f32⟩ : BufTy).Contents (Elt Ideal)) (w : (⟨S2048x1024, .f32⟩ : BufTy).Contents (Elt Ideal))
    (bias : (⟨S2048, .f32⟩ : BufTy).Contents (Elt Ideal)) (b : Fin 8) (j : Fin 1024) :
    scale (F := Ideal) c w bias (ix3 b 0 j) = emb (F := Ideal) c w bias (ix2 b ⟨j.val, by have := j.isLt; omega⟩) := by
  unfold scale
  generalize emb (F := Ideal) c w bias = E
  refine (shapeCast_apply _ shapeCasts_S8x1024_S8x1x1024 (ix3 b 0 j) (ix2 b j) ?_).trans ?_
  · rw [Shape.rowMajor_val_two, Shape.rowMajor_val_three]
    show b.val * 1024 + j.val = (b.val * 1 + 0) * 1024 + j.val
    omega
  · exact extractStridedSlice_apply ![0, 0] E slices_S8x2048_S8x1024_0_0 (ix2 b j) _ (fun a => match a with
      | ⟨0, _⟩ => by show b.val = 0 + b.val; omega
      | ⟨1, _⟩ => by show j.val = 0 + j.val; omega)

/-- The shift handed to the launch at (b, 0, j) is the embedding at column 1024 + j. -/
theorem shift_apply (c : (⟨S8x1024, .f32⟩ : BufTy).Contents (Elt Ideal)) (w : (⟨S2048x1024, .f32⟩ : BufTy).Contents (Elt Ideal))
    (bias : (⟨S2048, .f32⟩ : BufTy).Contents (Elt Ideal)) (b : Fin 8) (j : Fin 1024) :
    shift (F := Ideal) c w bias (ix3 b 0 j) = emb (F := Ideal) c w bias (ix2 b ⟨1024 + j.val, by have := j.isLt; omega⟩) := by
  unfold shift
  generalize emb (F := Ideal) c w bias = E
  refine (shapeCast_apply _ shapeCasts_S8x1024_S8x1x1024 (ix3 b 0 j) (ix2 b j) ?_).trans ?_
  · rw [Shape.rowMajor_val_two, Shape.rowMajor_val_three]
    show b.val * 1024 + j.val = (b.val * 1 + 0) * 1024 + j.val
    omega
  · exact extractStridedSlice_apply ![0, 1024] E slices_S8x2048_S8x1024_0_1024 (ix2 b j) _ (fun a => match a with
      | ⟨0, _⟩ => by show b.val = 0 + b.val; omega
      | ⟨1, _⟩ => by show 1024 + j.val = 1024 + j.val; omega)

end K

end Cert.AdaNorm

end
-- ==== Proof.Bridge.lean ====
/-
  The two programs project the conditioning vector to the same scale and shift.

  The reference keeps c as an [8, 1, 1024] array and writes each quantised value in the straight-through form
  a + (q − a); the kernel program keeps c as [8, 1024] and writes q.  Where a is a real number a + (q − a) is q, so under
  the precondition the reference's activations and weights are the quantised ones.  The rest is re-indexing: row b of
  the [8, 1, 1024] array is row b of c, its largest absolute value is folded over the same 1024 entries, the reference's
  contraction pairs the same entries as the kernel program's, and both cut the embedding into the same two halves.
-/
import proofs.«180579_j17978733101754_2_alg».proof.Proof.RefRead
import proofs.«180579_j17978733101754_2_alg».proof.Proof.HostRead
import proofs.«180579_j17978733101754_2_alg».proof.Proof.Spec

noncomputable section

namespace Cert.AdaNorm

open Cert.ReferenceIdeal Cert.ReferenceIdeal.Gen Cert.ReferenceIdeal.Read Idealize.ShloMosaic Idealize.ShloMosaic.ValueIdx

/-! ## The straight-through forms -/

/-- Where the weights are real numbers the reference's straight-through weights are the quantised weights. -/
theorem ref_weights (w : (⟨S2048x1024, .f32⟩ : BufTy).Contents (Elt Ideal)) (hw : ∀ i, ∃ r : ℝ, w i = (r : EReal)) :
    val_main_v27 (F := Ideal) w = val_main_v25 (F := Ideal) w := by
  funext i
  rw [val_main_v27_apply, val_main_v26_apply]
  exact add_sub_cancel_of_real (hw i) _

/-- Where the conditioning is real the reference's straight-through activations are the quantised activations. -/
theorem ref_activations (c : (⟨S8x1024, .f32⟩ : BufTy).Contents (Elt Ideal)) (hc : ∀ i, ∃ r : ℝ, c i = (r : EReal)) :
    val_main_v14 (F := Ideal) c = val_main_v12 (F := Ideal) c := by
  funext i
  rw [val_main_v14_apply, val_main_v13_apply, val_main_v0_apply]
  exact add_sub_cancel_of_real (hc _) _

/-! ## The quantised weights: one term in both programs -/

/-- The reference's quantised weights are the kernel program's, operation by operation. -/
theorem ref_wQuant (w : (⟨S2048x1024, .f32⟩ : BufTy).Contents (Elt Ideal)) :
    val_main_v25 (F := Ideal) w = K.wQuant (F := Ideal) w := rfl

/-! ## The quantised activations, entry by entry -/

/-- Row b's largest absolute value: the reference folds the same 1024 entries. -/
theorem ref_rowMax (c : (⟨S8x1024, .f32⟩ : BufTy).Contents (Elt Ideal)) (b : Fin 8) :
    val_main_v2 (F := Ideal) c (ix2 b 0) = K.rowMax c b := by
  unfold val_main_v2 K.rowMax
  rw [Host.reduce_eq_fold_single FloatOps.maximumf _ _ reducesTo_S8x1x1024_S8x1_d2 (by decide) h_S_,
    Host.reduce_eq_fold_single FloatOps.maximumf _ _ Cert.KernelIdeal.Gen.reducesTo_S8x1024_S8_d1 (by decide) Cert.KernelIdeal.Gen.h_S_]
  refine Finset.fold_congr fun k _ => ?_
  simp only [Function.comp_apply]
  rw [val_main_v1_apply, val_main_v0_apply]
  exact congrArg (fun i => FloatOps.hostAbsf (F := Ideal) (φ := .f32) (c i))
    (funext fun a => Fin.ext (by match a with | ⟨0, _⟩ => rfl | ⟨1, _⟩ => rfl))

/-- Row b's scale. -/
theorem ref_rowScale (c : (⟨S8x1024, .f32⟩ : BufTy).Contents (Elt Ideal)) (b : Fin 8) :
    val_main_v6 (F := Ideal) c (ix3 b 0 0) = K.cScale (F := Ideal) c (ix2 b 0) := by
  have e : idx_main_v3 (ix3 b (0 : Fin 1) (0 : Fin 1)) = ix2 b 0 :=
    funext fun a => Fin.ext (by match a with | ⟨0, _⟩ => rfl | ⟨1, _⟩ => rfl)
  rw [K.cScale_apply, ← ref_rowMax, val_main_v6_apply, val_main_v5_apply, val_main_cst_1_apply, val_main_v4_apply,
    val_main_call0_v1_apply, val_main_call0_v0_apply, val_main_cst_0_apply, val_main_v3_apply, e]
  rfl

/-- Entry (b, 0, k) of the reference's quantised activations is entry (b, k) of the kernel program's. -/
theorem ref_cQuant (c : (⟨S8x1024, .f32⟩ : BufTy).Contents (Elt Ideal)) (b : Fin 8) (k : Fin 1024) :
    val_main_v12 (F := Ideal) c (ix3 b 0 k) = K.cQuant (F := Ideal) c (ix2 b k) := by
  have e0 : idx_main_v0 (ix3 b (0 : Fin 1) k) = ix2 b k :=
    funext fun a => Fin.ext (by match a with | ⟨0, _⟩ => rfl | ⟨1, _⟩ => rfl)
  have e7 : idx_main_v7 (ix3 b (0 : Fin 1) k) = ix3 b 0 0 :=
    funext fun a => Fin.ext (by match a with | ⟨0, _⟩ => rfl | ⟨1, _⟩ => rfl | ⟨2, _⟩ => rfl)
  have e11 : idx_main_v11 (ix3 b (0 : Fin 1) k) = ix3 b 0 0 :=
    funext fun a => Fin.ext (by match a with | ⟨0, _⟩ => rfl | ⟨1, _⟩ => rfl | ⟨2, _⟩ => rfl)
  rw [K.cQuant_apply, ← ref_rowScale, val_main_v12_apply, val_main_v10_apply, val_main_call2_v4_apply, val_main_call2_v3_apply,
    val_main_cst_3_apply, val_main_call2_v2_apply, val_main_call2_v1_apply, val_main_call2_v0_apply, val_main_cst_2_apply,
    val_main_v9_apply, val_main_v8_apply, val_main_v0_apply, val_main_v7_apply, val_main_v11_apply, e0, e7, e11]
  rfl

/-! ## The embedding and its two halves -/

/-- Entry (b, 0, J) of the reference's embedding is entry (b, J) of the kernel program's. -/
theorem ref_emb (c : (⟨S8x1024, .f32⟩ : BufTy).Contents (Elt Ideal)) (w : (⟨S2048x1024, .f32⟩ : BufTy).Contents (Elt Ideal))
    (bias : (⟨S2048, .f32⟩ : BufTy).Contents (Elt Ideal)) (hc : ∀ i, ∃ r : ℝ, c i = (r : EReal)) (hw : ∀ i, ∃ r : ℝ, w i = (r : EReal))
    (b : Fin 8) (J : Fin 2048) :
    val_main_v31 (F := Ideal) c w bias (ix3 b 0 J) = K.emb (F := Ideal) c w bias (ix2 b J) := by
  have el : ∀ k : Fin 1024, lidx_main_v28 (ix3 b (0 : Fin 1) J) k = ix3 b 0 k := fun k =>
    funext fun a => Fin.ext (by match a with | ⟨0, _⟩ => rfl | ⟨1, _⟩ => rfl | ⟨2, _⟩ => rfl)
  have er : ∀ k : Fin 1024, ridx_main_v28 (ix3 b (0 : Fin 1) J) k = ix2 J k := fun k =>
    funext fun a => Fin.ext (by match a with | ⟨0, _⟩ => rfl | ⟨1, _⟩ => rfl)
  have eb : idx_main_v29 (idx_main_v30 (ix3 b (0 : Fin 1) J)) = ix1 J :=
    funext fun a => Fin.ext (by match a with | ⟨0, _⟩ => rfl)
  rw [K.emb_apply, val_main_v31_apply, val_main_v28_apply, val_main_v30_apply, val_main_v29_apply, ref_activations c hc,
    ref_weights w hw, ref_wQuant, eb]
  simp only [el, er, ref_cQuant]
  rfl

/-- The reference's scale is the scale the kernel program hands its launch. -/
theorem ref_scale (c : (⟨S8x1024, .f32⟩ : BufTy).Contents (Elt Ideal)) (w : (⟨S2048x1024, .f32⟩ : BufTy).Contents (Elt Ideal))
    (bias : (⟨S2048, .f32⟩ : BufTy).Contents (Elt Ideal)) (hc : ∀ i, ∃ r : ℝ, c i = (r : EReal)) (hw : ∀ i, ∃ r : ℝ, w i = (r : EReal)) :
    val_main_v32 (F := Ideal) c w bias = K.scale (F := Ideal) c w bias := by
  funext i
  obtain ⟨b, u, j, rfl⟩ : ∃ (b : Fin 8) (u : Fin 1) (j : Fin 1024), i = ix3 b u j := ⟨i 0, i 1, i 2, eq_ix3 i⟩
  obtain rfl : u = 0 := Subsingleton.elim _ _
  have e : idx_main_v32 (ix3 b (0 : Fin 1) j) = ix3 b 0 (⟨j.val, by have := j.isLt; omega⟩ : Fin 2048) :=
    funext fun a => Fin.ext (by match a with | ⟨0, _⟩ => rfl | ⟨1, _⟩ => rfl | ⟨2, _⟩ => rfl)
  rw [K.scale_apply, val_main_v32_apply, e, ref_emb c w bias hc hw]

/-- The reference's shift is the shift the kernel program hands its launch. -/
theorem ref_shift (c : (⟨S8x1024, .f32⟩ : BufTy).Contents (Elt Ideal)) (w : (⟨S2048x1024, .f32⟩ : BufTy).Contents (Elt Ideal))
    (bias : (⟨S2048, .f32⟩ : BufTy).Contents (Elt Ideal)) (hc : ∀ i, ∃ r : ℝ, c i = (r : EReal)) (hw : ∀ i, ∃ r : ℝ, w i = (r : EReal)) :
    val_main_v33 (F := Ideal) c w bias = K.shift (F := Ideal) c w bias := by
  funext i
  obtain ⟨b, u, j, rfl⟩ : ∃ (b : Fin 8) (u : Fin 1) (j : Fin 1024), i = ix3 b u j := ⟨i 0, i 1, i 2, eq_ix3 i⟩
  obtain rfl : u = 0 := Subsingleton.elim _ _
  have e : idx_main_v33 (ix3 b (0 : Fin 1) j) = ix3 b 0 (⟨1024 + j.val, by have := j.isLt; omega⟩ : Fin 2048) :=
    funext fun a => Fin.ext (by match a with | ⟨0, _⟩ => rfl | ⟨1, _⟩ => rfl | ⟨2, _⟩ => rfl)
  rw [K.shift_apply, val_main_v33_apply, e, ref_emb c w bias hc hw]

end Cert.AdaNorm

end
-- ==== Proof.lean ====
/-
  An adaptive RMS normalisation with a quantised projection of its conditioning vector: the kernel program against its
  jnp reference, at the ideal values.

  Both programs project the conditioning c [8, 1024] through 8-bit activations and ternary weights to an embedding
  [8, 2048], cut it into a scale and a shift, and return
      x · rsqrt(mean_k x² + ε) · weight · (1 + scale) + shift
  over x [8, 4096, 1024].  The kernel program computes the projection on the host and the normalisation in one launch over
  a grid of (batch row, half of the sequence); the reference computes everything on the host, keeps c as an [8, 1, 1024]
  array and writes each quantised value in the straight-through form a + (q − a).

  The frames are the generated ones (the reference's is its run with the result dropped); the idealisation rewrote
  nothing, so there is nothing to preserve.  For the value claim: the launch's result array is the modulated normalisation
  of x by the scale and shift the host side hands it (KernelValue), the reference's result is the modulated normalisation
  of x by its own scale and shift (RefSide), and under the precondition — c and the weights are real, so a + (q − a) = q —
  the two scales and the two shifts are the same arrays (Bridge).
-/
import proofs.«180579_j17978733101754_2_alg».proof.Defs
import proofs.«180579_j17978733101754_2_alg».proof.Proof.Gen.Kernel
import proofs.«180579_j17978733101754_2_alg».proof.Proof.Gen.Kernel.Skeleton
import proofs.«180579_j17978733101754_2_alg».proof.Proof.Gen.Kernel.Launch
import proofs.«180579_j17978733101754_2_alg».proof.Proof.Gen.Kernel.Points
import proofs.«180579_j17978733101754_2_alg».proof.Proof.Gen.Kernel.Frame
import proofs.«180579_j17978733101754_2_alg».proof.Proof.Gen.KernelIdeal
import proofs.«180579_j17978733101754_2_alg».proof.Proof.Gen.KernelIdeal.Skeleton
import proofs.«180579_j17978733101754_2_alg».proof.Proof.Gen.KernelIdeal.Launch
import proofs.«180579_j17978733101754_2_alg».proof.Proof.Gen.KernelIdeal.Points
import proofs.«180579_j17978733101754_2_alg».proof.Proof.Gen.KernelIdeal.Frame
import proofs.«180579_j17978733101754_2_alg».proof.Proof.Gen.KernelIdeal.Value
import proofs.«180579_j17978733101754_2_alg».proof.Proof.Gen.ReferenceIdeal
import proofs.«180579_j17978733101754_2_alg».proof.Proof.Gen.Pre_finite_inputs
import proofs.«180579_j17978733101754_2_alg».proof.Proof.RefRun
import proofs.«180579_j17978733101754_2_alg».proof.Proof.RefRead
import proofs.«180579_j17978733101754_2_alg».proof.Proof.RefSide
import proofs.«180579_j17978733101754_2_alg».proof.Proof.KernelValue
import proofs.«180579_j17978733101754_2_alg».proof.Proof.Finite
import proofs.«180579_j17978733101754_2_alg».proof.Proof.Bridge
import Idealize.ShloMosaic.Adequacy
import Idealize.ShloMosaic.Init

noncomputable section

namespace Cert.Proof

open Idealize.ShloMosaic Idealize.SL.Sem

/-- The kernel program runs and leaves its arguments unchanged: the generated frame. -/
theorem frame_kernel : Cert.frame_Kernel := fun m ρ _ => Cert.Kernel.Gen.frame m ρ

/-- The idealised kernel program likewise. -/
theorem frame_kernelIdeal : Cert.frame_KernelIdeal := fun m ρ _ => Cert.KernelIdeal.Gen.frame m ρ

/-- The reference runs and leaves its arguments unchanged: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- At the ideal values both programs end with the modulated normalisation of x by one scale and one shift. -/
theorem algebraic : Cert.algebraic_KernelIdeal_ReferenceIdeal := by
  intro m ρ m' ρ' hpre hagree
  refine ⟨fun c => Cert.AdaNorm.K.result m c, Cert.AdaNorm.K.run m ρ, ?_⟩
  refine (θ_run Cert.ReferenceIdeal.defs _ _).mono (fun _ h c => ⟨(h c).1.trans ?_, (h c).2⟩)
    (Cert.ReferenceIdeal.Value.run (F := Ideal) m' ρ')
  obtain ⟨hc, hw⟩ := Cert.AdaNorm.real_of_pre _ _ _ _ _ (hpre c)
  obtain ⟨a0, a1, a2, a3, a4⟩ := hagree c
  rw [Cert.ReferenceIdeal.Read.val_main_v52_eq, Cert.AdaNorm.ref_eq_modNorm, a0, a1, a2, a3, a4,
    Cert.AdaNorm.ref_scale _ _ _ hc hw, Cert.AdaNorm.ref_shift _ _ _ hc hw]
  exact (Cert.AdaNorm.K.result_eq m c).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
